-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000x128 : Shape := ⟨2, ![1000, 128]⟩
abbrev S128x128 : Shape := ⟨2, ![128, 128]⟩
abbrev S16384x128 : Shape := ⟨2, ![16384, 128]⟩
abbrev S4x128 : Shape := ⟨2, ![4, 128]⟩
abbrev S512x128 : Shape := ⟨2, ![512, 128]⟩
abbrev S4 : Shape := ⟨1, ![4]⟩
abbrev S_ : Shape := ⟨0, ![]⟩
abbrev S1x128 : Shape := ⟨2, ![1, 128]⟩
abbrev S128 : Shape := ⟨1, ![128]⟩
abbrev S1 : Shape := ⟨1, ![1]⟩

abbrev nBuf : Table → Nat
  | .hbm => 4
  | .local .scVector .vmem => 2
  | _ => 0

abbrev bufTy : (tb : Table) → Fin (nBuf tb) → BufTy
  | .hbm, ⟨0, _⟩ => ⟨S16384, .i32⟩
  | .hbm, ⟨1, _⟩ => ⟨S1000x128, .f32⟩
  | .hbm, ⟨2, _⟩ => ⟨S128x128, .i32⟩
  | .hbm, ⟨3, _⟩ => ⟨S16384x128, .f32⟩
  | .local .scVector .vmem, ⟨0, _⟩ => ⟨S4x128, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_102_r0 : BitVec 32 := 0#32
  ![v3.toNat, 0]
def k0_off2 (i : grid0.Coords) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v34 : BitVec 32 := Scalar.addi v2 c0_i32_29
  let c0_i32_32 : BitVec 32 := 0#32
  ![v34.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S128x128 : S16384.ShapeCasts S128x128
  inb_S512x128_S128x128_0_0 : ∀ a, (![0, 0] : Fin 2 → Nat) a + S128x128.size a ≤ S512x128.size a
  inb_S4x128_S1x128_0_0 : ∀ a, (![0, 0] : Fin 2 → Nat) a + S1x128.size a ≤ S4x128.size a
  squeezes_S1x128_S128 : S1x128.Squeezes S128
  inb_S1000x128_S1000x128_0_0 : ∀ a, (![0, 0] : Fin 2 → Nat) a + S1000x128.size a ≤ S1000x128.size a
  inb_S4_S1_0 : ∀ a, (![0] : Fin 1 → Nat) a + S1.size a ≤ S4.size a
  squeezes_S1_S_ : S1.Squeezes S_
  gathers_S1000x128_S128x128 : S1000x128.Gathers 0 S128x128
  inb_S512x128_S128x128_128_0 : ∀ a, (![128, 0] : Fin 2 → Nat) a + S128x128.size a ≤ S512x128.size a
  inb_S4x128_S1x128_1_0 : ∀ a, (![1, 0] : Fin 2 → Nat) a + S1x128.size a ≤ S4x128.size a
  inb_S4_S1_1 : ∀ a, (![1] : Fin 1 → Nat) a + S1.size a ≤ S4.size a
  inb_S512x128_S128x128_256_0 : ∀ a, (![256, 0] : Fin 2 → Nat) a + S128x128.size a ≤ S512x128.size a
  inb_S4x128_S1x128_2_0 : ∀ a, (![2, 0] : Fin 2 → Nat) a + S1x128.size a ≤ S4x128.size a
  inb_S4_S1_2 : ∀ a, (![2] : Fin 1 → Nat) a + S1.size a ≤ S4.size a
  inb_S512x128_S128x128_384_0 : ∀ a, (![384, 0] : Fin 2 → Nat) a + S128x128.size a ≤ S512x128.size a
  inb_S4x128_S1x128_3_0 : ∀ a, (![3, 0] : Fin 2 → Nat) a + S1x128.size a ≤ S4x128.size a
  inb_S4_S1_3 : ∀ a, (![3] : Fin 1 → Nat) a + S1.size a ≤ S4.size a
  hcc0_scratch2 : 0 + S4.numel ≤ 6
  hcc0_scratch3 : 4 + S_.numel ≤ 6
  hcc0_scoped0 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x128.size a ≤ S128x128.size a
  k0_off2_inb : ∀ i : grid0.Coords, ∀ (r : Fin 4), ∀ a, (k0_off2 i (BitVec.ofNat 32 (128 * r.val))) a + S128x128.size a ≤ S16384x128.size a

variable [Facts₀]

abbrev cc0_scratch2 : DmaSems sig S4 := SemArray.consecutive 0 S4 hcc0_scratch2
abbrev cc0_scratch3 : DmaSems sig S_ := SemArray.consecutive 4 S_ hcc0_scratch3
abbrev cc0_scoped0 : DmaSems sig S_ := SemArray.consecutive 5 S_ hcc0_scoped0

class Facts : Prop extends Facts₀ where

variable [Facts]
-- ==== ReferenceIdeal.lean ====
abbrev S16384 : Shape := ⟨1, ![16384]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S1000x128_S16384x1_S16384x128_1_0_n_n_0_1_1128_wf : GatherDims.WF S1000x128 S16384x1 S16384x128 [1] [0] [] [0] [] 1 ![1, 128]

variable [Facts₀]

def gather_S1000x128_S16384x1_S16384x128_1_0_n_n_0_1_1128 : GatherDims S1000x128 S16384x1 S16384x128 where
  offsetDims := [1]
  collapsedSliceDims := [0]
  operandBatchingDims := []
  startIndicesBatchingDims := []
  startIndexMap := [0]
  indexVectorDim := 1
  sliceSizes := ![1, 128]
  wf := gather_S1000x128_S16384x1_S16384x128_1_0_n_n_0_1_1128_wf

class Facts : Prop extends Facts₀ where

variable [Facts]
-- ==== Proof.LibNestedSplit.lean ====
/-
  A buffer held whole is the nested family of its pieces.

  If finitely many element sets, indexed by two (or by three) finite index types, are pairwise disjoint and
  together contain every element of a buffer, then holding the buffer whole at contents `f` is holding every one
  of the sets at `f`, the family nested index by index.  The hypotheses speak of membership and disjointness
  only, so a user may state them over the buffer's literal index type.
-/
import Idealize.ShloMosaic.Rules.PointsTo

noncomputable section

namespace Cert.Proof.LibNestedSplit

open Idealize.ShloMosaic
open Idealize.SL
open Idealize.SL.RA Idealize.SL.Sem Idealize.SL.ProofMode
open Idealize.SL.BI (sProp bigSep bigSep_congr)
open scoped Idealize.SL.BI
open Idealize.SL.BI.BIBase Idealize.SL.BI.Laws
open PCS URA Auth

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {q : PosShare TreeShare} {f : Buf Val ℓ}

/-- Two index types. -/
theorem pointsTo_nested_two {T₁ T₂ : Type} [Fintype T₁] [Fintype T₂] [DecidableEq T₁] [DecidableEq T₂]
    (K : T₁ → T₂ → Finset (Idx ℓ))
    (hd : ∀ a b a' b', (a ≠ a' ∨ b ≠ b') → Disjoint (K a b) (K a' b'))
    (hc : ∀ x, ∃ a b, x ∈ K a b) :
    (ℓ ↦{q} f : sProp 𝕄) = bigSep Finset.univ fun a : T₁ => bigSep Finset.univ fun b : T₂ => ℓ ↦[K a b]{q} f := by
  classical
  have e1 : ∀ a, (ℓ ↦[(Finset.univ : Finset T₂).biUnion (K a)]{q} f : sProp 𝕄) = bigSep Finset.univ fun b : T₂ => ℓ ↦[K a b]{q} f :=
    fun a => pointsTo_biUnion Finset.univ (K a) fun b _ b' _ h => hd a b a b' (.inr h)
  have e2 : (ℓ ↦[(Finset.univ : Finset T₁).biUnion fun a => (Finset.univ : Finset T₂).biUnion (K a)]{q} f : sProp 𝕄)
      = bigSep Finset.univ fun a : T₁ => ℓ ↦[(Finset.univ : Finset T₂).biUnion (K a)]{q} f :=
    pointsTo_biUnion Finset.univ (fun a => (Finset.univ : Finset T₂).biUnion (K a)) fun a _ a' _ h =>
      Finset.disjoint_left.mpr fun x hx hx' => by
        obtain ⟨b, -, hb⟩ := Finset.mem_biUnion.mp hx
        obtain ⟨b', -, hb'⟩ := Finset.mem_biUnion.mp hx'
        exact Finset.disjoint_left.mp (hd a b a' b' (.inl h)) hb hb'
  have e3 : ((Finset.univ : Finset T₁).biUnion fun a => (Finset.univ : Finset T₂).biUnion (K a)) = Finset.univ :=
    Finset.eq_univ_of_forall fun x => by
      obtain ⟨a, b, h⟩ := hc x
      exact Finset.mem_biUnion.mpr ⟨a, Finset.mem_univ _, Finset.mem_biUnion.mpr ⟨b, Finset.mem_univ _, h⟩⟩
  rw [show (ℓ ↦{q} f : sProp 𝕄) = ℓ ↦[Finset.univ]{q} f from rfl, ← e3, e2]
  exact bigSep_congr fun a _ => e1 a

/-- Three index types. -/
theorem pointsTo_nested_three {T₁ T₂ T₃ : Type} [Fintype T₁] [Fintype T₂] [Fintype T₃] [DecidableEq T₁] [DecidableEq T₂] [DecidableEq T₃]
    (K : T₁ → T₂ → T₃ → Finset (Idx ℓ))
    (hd : ∀ a b c a' b' c', (a ≠ a' ∨ b ≠ b' ∨ c ≠ c') → Disjoint (K a b c) (K a' b' c'))
    (hc : ∀ x, ∃ a b c, x ∈ K a b c) :
    (ℓ ↦{q} f : sProp 𝕄) = bigSep Finset.univ fun a : T₁ => bigSep Finset.univ fun b : T₂ => bigSep Finset.univ fun c : T₃ => ℓ ↦[K a b c]{q} f := by
  classical
  have e0 := pointsTo_nested_two (ℓ := ℓ) (q := q) (f := f) (Ix := Ix) (Name := Name) (U := U) (Lvl := Lvl)
    (fun a b => (Finset.univ : Finset T₃).biUnion (K a b))
    (fun a b a' b' h => Finset.disjoint_left.mpr fun x hx hx' => by
      obtain ⟨c, -, hc1⟩ := Finset.mem_biUnion.mp hx
      obtain ⟨c', -, hc2⟩ := Finset.mem_biUnion.mp hx'
      exact Finset.disjoint_left.mp (hd a b c a' b' c' (h.elim .inl fun h' => .inr (.inl h'))) hc1 hc2)
    (fun x => by
      obtain ⟨a, b, c, h⟩ := hc x
      exact ⟨a, b, Finset.mem_biUnion.mpr ⟨c, Finset.mem_univ _, h⟩⟩)
  refine e0.trans (bigSep_congr fun a _ => bigSep_congr fun b _ => ?_)
  exact pointsTo_biUnion Finset.univ (K a b) fun c _ c' _ h => hd a b c a b c' (.inr (.inr h))

end Cert.Proof.LibNestedSplit

end
-- ==== Proof.Spec.lean ====
/-
  The lookup, stated once for both programs.

  `rowOf w` is the table row an index word names: the word read as a natural number, kept inside the table's 1000
  rows.  `lookup tbl idx` is the result both programs compute where every index is below 1000: row `i` of the
  result is row `idx[i]` of the table.
-/
import Idealize.ShloMosaic.Lib.ValueIdx

namespace Cert.Proof.Spec

open Idealize.ShloMosaic

/-- The table row an index word names. -/
def rowOf (w : BitVec 32) : Fin 1000 := ⟨min w.toNat 999, by omega⟩

theorem rowOf_val_of_lt {w : BitVec 32} (h : w.toNat < 1000) : (rowOf w).val = w.toNat := by
  show min w.toNat 999 = w.toNat; omega

/-- Row `i` of the result is row `idx[i]` of the table. -/
def lookup {α : Type} (tbl : (⟨2, ![1000, 128]⟩ : Shape).Idx → α) (idx : (⟨1, ![16384]⟩ : Shape).Idx → BitVec 32) :
    (⟨2, ![16384, 128]⟩ : Shape).Idx → α :=
  fun x => tbl (ValueIdx.ix2 (rowOf (idx (ValueIdx.ix1 (⟨(x 0).val, (x 0).isLt⟩ : Fin 16384)))) (⟨(x 1).val, (x 1).isLt⟩ : Fin 128))

end Cert.Proof.Spec
-- ==== Proof.KISetup.lean ====
/-
  The embedding lookup on the SparseCore: what its parts share.

  The kernel runs on the 32 vector subcores (2 SparseCores of 16) of the device.  Subcore (c, s) is worker
  w = 2 s + c; it owns rows 512 w … 512 w + 511 of the result and rows 4 w … 4 w + 3 of the index array
  reshaped to [128, 128] (the same 512 indices).  It copies its four index rows into its own memory, gathers, for
  each of them, the 128 table rows the indices name into a quarter of a [512, 128] buffer, and copies each
  quarter out to its 128 rows of the result.  So row i of the result is row inputs[i] of the table.

  Here: the program as the launch theorem sees it; the ghost state (the launch handshakes' rounds beside the
  transfers' counters); the arrays' locations; the reshaped index array `V0`; the result `Gout` as ONE function
  of the table and the indices; the pieces of the arrays a subcore is handed, and how the whole arrays split
  into them.
-/
import proofs.«216249_g22557168238913_cont_8to1_658_3_alg».proof.Defs
import Idealize.ShloMosaic.Lib.SparseCore.Launch
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import Idealize.ShloMosaic.Lib.ValueIdx
import Idealize.ShloMosaic.Lib.Pipeline.Value
import proofs.«216249_g22557168238913_cont_8to1_658_3_alg».proof.Proof.Gen.KernelIdeal
import proofs.«216249_g22557168238913_cont_8to1_658_3_alg».proof.Proof.Gen.KernelIdeal.Skeleton
import proofs.«216249_g22557168238913_cont_8to1_658_3_alg».proof.Proof.LibNestedSplit
import proofs.«216249_g22557168238913_cont_8to1_658_3_alg».proof.Proof.Spec

noncomputable section

namespace Cert.Proof.KI

open Cert.KernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The indices (`inputs`), the table, the indices reshaped to [128, 128], the result: as locations of device `d`. -/
abbrev aLoc (d : Dev nD) : Loc nD τ sig := (SparseCore.T d).loc main_arg0
abbrev tLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

abbrev a' : DevRef τ sig := Proc.devRef .tc (main_arg0 : Ref sig .tc)
abbrev t' : DevRef τ sig := Proc.devRef .tc (main_arg1 : Ref sig .tc)
abbrev v' : DevRef τ sig := Proc.devRef .tc (main_v0 : Ref sig .tc)
abbrev o' : DevRef τ sig := Proc.devRef .tc (main_v1 : Ref sig .tc)

/-- @main's one host operation: the reshape of the indices. -/
abbrev opReshape : HloOp τ sig (Elt F) := StableHlo.reshape main_arg0 main_v0 rfl Facts₀.shapeCasts_S16384_S128x128

/-- The launch valuation of device `d`, and the one after the reshape. -/
def Vl (d : Dev nD) : Valuation τ sig (Elt F) := fun b => m (d, b)
def Vr (d : Dev nD) : Valuation τ sig (Elt F) := (opReshape (F := F)).result (Vl m d)

/-- The reshaped indices. -/
def V0 (d : Dev nD) : Buf (Elt F) (vLoc d) := Vr m d v'

theorem V0_eq (d : Dev nD) :
    V0 m d = (shapeCast S128x128 (m (aLoc d) : S16384.Idx → BitVec 32) Facts₀.shapeCasts_S16384_S128x128 : S128x128.Idx → BitVec 32) := by
  rfl

/-! ## A subcore's pieces of the arrays -/

/-- The grid point of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- The same from plain numbers. -/
abbrev Lc (c : Fin 2) (i : Fin 16) : grid0.Coords := coordsV (Fin.cast bound_zero.symm c) (Fin.cast bound_one.symm i)

/-- The arrays and a subcore's two buffers, as the kernel names them. -/
abbrev tblW : Memref sig .scVector .hbm S1000x128 .f32 := Memref.whole main_arg1_scv
abbrev idxW : Memref sig .scVector .hbm S128x128 .i32 := Memref.whole main_v0_scv
abbrev outW : Memref sig .scVector .hbm S16384x128 .f32 := Memref.whole main_v1_scv
abbrev sI : Memref sig .scVector .vmem S4x128 .i32 := Memref.whole cc0_scratch0
abbrev sR : Memref sig .scVector .vmem S512x128 .f32 := Memref.whole cc0_scratch1

/-- The four index rows of the subcore at `L`, and quarter `r` of its rows of the result. -/
abbrev idxM (L : grid0.Coords) : Memref sig .scVector .hbm S4x128 .i32 :=
  idxW.slice (Rect.unit (s := S128x128) (k0_off1 L) S4x128.size (Facts₀.k0_off1_inb L)) (fun _ => rfl)
abbrev outM (L : grid0.Coords) (r : Fin 4) : Memref sig .scVector .hbm S128x128 .f32 :=
  outW.slice (Rect.unit (s := S16384x128) (k0_off2 L (BitVec.ofNat 32 (128 * r.val))) S128x128.size (Facts₀.k0_off2_inb L r)) (fun _ => rfl)

abbrev idxSet (L : grid0.Coords) : Finset S128x128.Idx := (idxM L).view.set
abbrev outSet (L : grid0.Coords) (r : Fin 4) : Finset S16384x128.Idx := (outM L r).view.set

theorem mem_idxSet (L : grid0.Coords) (x : S128x128.Idx) :
    x ∈ idxSet L ↔ 8 * (L 1).val + 4 * (L 0).val ≤ (x 0).val ∧ (x 0).val < 8 * (L 1).val + 4 * (L 0).val + 4 := by
  have e : idxSet L = (Rect.unit (s := S128x128) (k0_off1 L) S4x128.size (Facts₀.k0_off1_inb L)).set :=
    View.set_slice_whole (main_v0_scv : Ref sig .scVector) _
  rw [e, Rect.mem_set_unit, Gen.k0_off1_eq]
  constructor
  · intro h; exact h 0
  · intro h a
    match a with
    | ⟨0, _⟩ => exact h
    | ⟨1, _⟩ =>
      have h1 : (x 1).val < 128 := (x 1).isLt
      show 0 ≤ (x 1).val ∧ (x 1).val < 0 + 128
      omega

theorem mem_outSet (L : grid0.Coords) (r : Fin 4) (x : S16384x128.Idx) :
    x ∈ outSet L r ↔ 1024 * (L 1).val + 512 * (L 0).val + 128 * r.val ≤ (x 0).val
      ∧ (x 0).val < 1024 * (L 1).val + 512 * (L 0).val + 128 * r.val + 128 := by
  have e : outSet L r = (Rect.unit (s := S16384x128) (k0_off2 L (BitVec.ofNat 32 (128 * r.val))) S128x128.size (Facts₀.k0_off2_inb L r)).set :=
    View.set_slice_whole (main_v1_scv : Ref sig .scVector) _
  rw [e, Rect.mem_set_unit, Gen.k0_off2_eq]
  constructor
  · intro h; exact h 0
  · intro h a
    match a with
    | ⟨0, _⟩ => exact h
    | ⟨1, _⟩ =>
      have h1 : (x 1).val < 128 := (x 1).isLt
      show 0 ≤ (x 1).val ∧ (x 1).val < 0 + 128
      omega

theorem Lc_zero (c : Fin 2) (i : Fin 16) : ((Lc c i) 0).val = c.val := rfl
theorem Lc_one (c : Fin 2) (i : Fin 16) : ((Lc c i) 1).val = i.val := rfl

/-! ## The precondition's fact, and the result as one function -/

/-- What the proof asks of the launch memory: every index names a row of the table. -/
def PreOK : Prop := ∀ (d : Dev nD) (x : S16384.Idx), (m (aLoc d) x : BitVec 32).toNat < 1000

/-- Row-major position `(a, b)` of the reshaped indices is index `128 a + b`. -/
theorem V0_apply (d : Dev nD) (x : S128x128.Idx) :
    (V0 m d x : BitVec 32) = m (aLoc d) (ValueIdx.ix1 ⟨128 * (x 0).val + (x 1).val, by
      have h0 : (x 0).val < 128 := (x 0).isLt
      have h1 : (x 1).val < 128 := (x 1).isLt
      omega⟩) := by
  rw [V0_eq]
  refine shapeCast_apply (s := S16384) (t := S128x128) _ _ x _ ?_
  rw [Shape.rowMajor_val_one, Shape.rowMajor_val_two]
  show 128 * (x 0).val + (x 1).val = (x 0).val * 128 + (x 1).val
  omega

open Cert.Proof.Spec (rowOf)

/-- The result as one function of the table and the reshaped indices: row `i` of the result is the table's row named
    by index `i`, which sits at `(i / 128, i % 128)` of the reshaped array. -/
def GoutF (tbl : S1000x128.Idx → Elt F .f32) (ix : S128x128.Idx → BitVec 32) : S16384x128.Idx → Elt F .f32 :=
  fun x => tbl (ValueIdx.ix2
    (rowOf (ix (ValueIdx.ix2 (⟨(x 0).val / 128, by have h : (x 0).val < 16384 := (x 0).isLt; omega⟩ : Fin 128)
      (⟨(x 0).val % 128, Nat.mod_lt _ (by decide)⟩ : Fin 128))))
    (⟨(x 1).val, (x 1).isLt⟩ : Fin 128))

def Gout (d : Dev nD) : Buf (Elt F) (oLoc d) :=
  (GoutF (m (tLoc d) : S1000x128.Idx → Elt F .f32) (V0 m d : S128x128.Idx → BitVec 32) : S16384x128.Idx → Elt F .f32)

/-- Read through the reshape, the result is the lookup of the indices themselves. -/
theorem Gout_eq_lookup (d : Dev nD) :
    (Gout m d : S16384x128.Idx → Elt F .f32)
      = Cert.Proof.Spec.lookup (m (tLoc d) : S1000x128.Idx → Elt F .f32) (m (aLoc d) : S16384.Idx → BitVec 32) := by
  funext x
  unfold Gout GoutF Cert.Proof.Spec.lookup
  rw [V0_apply]
  have h0 : (x 0).val < 16384 := ValueIdx.idx2_lt0 x
  congr 3
  refine congrArg _ ?_
  funext a
  match a with
  | ⟨0, _⟩ => exact Fin.ext (show 128 * ((x 0).val / 128) + (x 0).val % 128 = (x 0).val by omega)

/-! ## What a subcore is handed, and what it hands back -/

/-- The share of the table the subcore at `L` reads through: one of 32 equal pieces. -/
abbrev tq (L : grid0.Coords) : PosShare TreeShare :=
  pieceOf (pieceOf fullShare 2 (by decide) (Fin.cast bound_zero (L 0))) 16 (by decide) (Fin.cast bound_one (L 1))

/-- A share of the table, the subcore's four rows of the reshaped indices, and its four quarters of the result at
    contents `f`. -/
def tileRes (d : Dev nD) (L : grid0.Coords) (f : Buf (Elt F) (oLoc d)) : sProp 𝕄 :=
  iprop((tLoc d ↦{tq L} m (tLoc d)) ∗ (vLoc d ↦[idxSet L]{fullShare} V0 m d)
    ∗ bigSep Finset.univ fun r : Fin 4 => oLoc d ↦[outSet L r]{fullShare} f)

instance tileRes_storable (d : Dev nD) (L : grid0.Coords) (f : Buf (Elt F) (oLoc d)) :
    BI.Storable (upEmb : UEmb _ 𝕄) (tileRes m d L f) := by
  unfold tileRes; infer_instance

/-- The one call hands SparseCore `c` its sixteen subcores' pieces, the result's at the launch contents, and takes
    them back with the result's at `Gout`; a subcore's proof consumes nothing of the launch's. -/
def P : (K (F := F)).Pay (nD := nD) (Val := Elt F) (Name := ℕ) (U := UU) where
  st := fun q d c => match q with
    | 0 => bigSep Finset.univ fun i : Fin 16 => tileRes m d (Lc (Fin.cast nCore_zero c) i) (m (oLoc d))
  dn := fun q d c => match q with
    | 0 => bigSep Finset.univ fun i : Fin 16 => tileRes m d (Lc (Fin.cast nCore_zero c) i) (Gout m d)
  go := fun q d c i => match q with
    | 0 => tileRes m d (Lc (Fin.cast nCore_zero c) (Fin.cast nSub_zero i)) (m (oLoc d))
  td := fun q d c i => match q with
    | 0 => tileRes m d (Lc (Fin.cast nCore_zero c) (Fin.cast nSub_zero i)) (Gout m d)
  x := fun _ _ => iprop(emp)

instance P_storable : (P (F := F) m).IsStorable where
  st q d c := match q with
    | 0 => (inferInstance : BI.Storable (upEmb : UEmb _ 𝕄) (bigSep Finset.univ fun i : Fin 16 => tileRes m d (Lc (Fin.cast nCore_zero c) i) (m (oLoc d))))
  dn q d c := match q with
    | 0 => (inferInstance : BI.Storable (upEmb : UEmb _ 𝕄) (bigSep Finset.univ fun i : Fin 16 => tileRes m d (Lc (Fin.cast nCore_zero c) i) (Gout m d)))
  go q d c i := match q with
    | 0 => (inferInstance : BI.Storable (upEmb : UEmb _ 𝕄) (tileRes m d (Lc (Fin.cast nCore_zero c) (Fin.cast nSub_zero i)) (m (oLoc d))))
  td q d c i := match q with
    | 0 => (inferInstance : BI.Storable (upEmb : UEmb _ 𝕄) (tileRes m d (Lc (Fin.cast nCore_zero c) (Fin.cast nSub_zero i)) (Gout m d)))

/-! ## The whole arrays split into the subcores' pieces -/

omit m in
theorem tbl_split (d : Dev nD) (f : Buf (Elt F) (tLoc d)) :
    (tLoc d ↦{fullShare} f : sProp 𝕄) = bigSep Finset.univ fun c : Fin 2 => bigSep Finset.univ fun i : Fin 16 => tLoc d ↦{tq (Lc c i)} f := by
  rw [pointsTo_piecesOf Finset.univ f (o := 2) (by decide) fullShare]
  exact bigSep_congr fun c _ => pointsTo_piecesOf Finset.univ f (o := 16) (by decide) _

omit m in
theorem idx_cover (x : S128x128.Idx) : ∃ (c : Fin 2) (i : Fin 16), x ∈ idxSet (Lc c i) := by
  have h0 : (x 0).val < 128 := ValueIdx.idx2_lt0 x
  refine ⟨⟨((x 0).val / 4) % 2, Nat.mod_lt _ (by decide)⟩, ⟨(x 0).val / 8, by omega⟩, ?_⟩
  rw [mem_idxSet, Lc_zero, Lc_one]
  show 8 * ((x 0).val / 8) + 4 * (((x 0).val / 4) % 2) ≤ (x 0).val ∧ (x 0).val < 8 * ((x 0).val / 8) + 4 * (((x 0).val / 4) % 2) + 4
  omega

omit m in
theorem idx_unique (c c' : Fin 2) (i i' : Fin 16) (x : S128x128.Idx) (h : x ∈ idxSet (Lc c i)) (h' : x ∈ idxSet (Lc c' i')) :
    c = c' ∧ i = i' := by
  rw [mem_idxSet, Lc_zero, Lc_one] at h h'
  have := c.isLt; have := c'.isLt
  exact ⟨Fin.ext (by omega), Fin.ext (by omega)⟩

omit m in
theorem idx_split (d : Dev nD) (f : Buf (Elt F) (vLoc d)) :
    (vLoc d ↦{fullShare} f : sProp 𝕄) = bigSep Finset.univ fun c : Fin 2 => bigSep Finset.univ fun i : Fin 16 => vLoc d ↦[idxSet (Lc c i)]{fullShare} f :=
  LibNestedSplit.pointsTo_nested_two (ℓ := vLoc d) (fun (c : Fin 2) (i : Fin 16) => idxSet (Lc c i))
    (fun c i c' i' h => Finset.disjoint_left.mpr fun x hx hx' => by
      obtain ⟨h1, h2⟩ := idx_unique c c' i i' x hx hx'
      exact h.elim (fun k => k h1) (fun k => k h2))
    (fun x => idx_cover x)

/-! The result's rows: quarters within a subcore, subcores within a SparseCore, the two SparseCores. -/

omit m in
theorem out_cover (x : S16384x128.Idx) : ∃ (c : Fin 2) (i : Fin 16) (r : Fin 4), x ∈ outSet (Lc c i) r := by
  have h0 : (x 0).val < 16384 := ValueIdx.idx2_lt0 x
  refine ⟨⟨((x 0).val / 512) % 2, Nat.mod_lt _ (by decide)⟩, ⟨(x 0).val / 1024, by omega⟩, ⟨((x 0).val / 128) % 4, Nat.mod_lt _ (by decide)⟩, ?_⟩
  rw [mem_outSet, Lc_zero, Lc_one]
  show 1024 * ((x 0).val / 1024) + 512 * (((x 0).val / 512) % 2) + 128 * (((x 0).val / 128) % 4) ≤ (x 0).val
    ∧ (x 0).val < 1024 * ((x 0).val / 1024) + 512 * (((x 0).val / 512) % 2) + 128 * (((x 0).val / 128) % 4) + 128
  omega

omit m in
theorem out_unique (c c' : Fin 2) (i i' : Fin 16) (r r' : Fin 4) (x : S16384x128.Idx)
    (h : x ∈ outSet (Lc c i) r) (h' : x ∈ outSet (Lc c' i') r') : c = c' ∧ i = i' ∧ r = r' := by
  rw [mem_outSet, Lc_zero, Lc_one] at h h'
  have := c.isLt; have := c'.isLt; have := r.isLt; have := r'.isLt
  exact ⟨Fin.ext (by omega), Fin.ext (by omega), Fin.ext (by omega)⟩

omit m in
theorem out_split (d : Dev nD) (f : Buf (Elt F) (oLoc d)) :
    (oLoc d ↦{fullShare} f : sProp 𝕄) = bigSep Finset.univ fun c : Fin 2 => bigSep Finset.univ fun i : Fin 16 =>
      bigSep Finset.univ fun r : Fin 4 => oLoc d ↦[outSet (Lc c i) r]{fullShare} f :=
  LibNestedSplit.pointsTo_nested_three (ℓ := oLoc d) (fun (c : Fin 2) (i : Fin 16) (r : Fin 4) => outSet (Lc c i) r)
    (fun c i r c' i' r' h => Finset.disjoint_left.mpr fun x hx hx' => by
      obtain ⟨h1, h2, h3⟩ := out_unique c c' i i' r r' x hx hx'
      exact h.elim (fun k => k h1) (fun h' => h'.elim (fun k => k h2) (fun k => k h3)))
    (fun x => out_cover x)

/-- The three arrays whole are the 32 subcores' pieces. -/
theorem arrays_split (d : Dev nD) (f : Buf (Elt F) (oLoc d)) :
    (iprop((tLoc d ↦{fullShare} m (tLoc d)) ∗ (vLoc d ↦{fullShare} V0 m d) ∗ (oLoc d ↦{fullShare} f)) : sProp 𝕄)
      = bigSep Finset.univ fun c : Fin 2 => bigSep Finset.univ fun i : Fin 16 => tileRes m d (Lc c i) f := by
  rw [tbl_split d (m (tLoc d)), idx_split d (V0 m d), out_split d f]
  unfold tileRes
  simp only [bigSep_sep']

end Cert.Proof.KI

end
-- ==== Proof.LibWholeView.lean ====
/-
  Two general facts about contents read and written through a view of a buffer.

  `read_writes_whole_cons`: after a list of stores through rectangles of a view, the last of which went through
  the WHOLE of the view, the view reads back exactly that last payload — whatever the earlier stores and the
  prior contents were.  (A copy that fills a staging slot, or a chunk of an array, is such a store.)

  `eq_on_set_of_read_eq`: two contents of a buffer that read alike through a view agree on every element of
  the buffer that the view addresses — so an assertion that holds the buffer on exactly the view's elements
  cannot tell them apart (with `pointsTo_congr`: held on `v.set`, the buffer at `f` is the buffer at `f'`).
-/
import Idealize.ShloMosaic.Lib.Writes

namespace Cert.Proof.LibWholeView

open Idealize.ShloMosaic

variable {sig : RefSig} {κ : Kind} {sp : Space} {s : Shape} {e : EltTy} {Val : EltTy → Type}

/-- A store through the whole of a view, made last, reads back as its payload whatever was stored before. -/
theorem read_writes_whole_cons (v : View sig κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- Contents that read alike through a view agree on the view's own elements. -/
theorem eq_on_set_of_read_eq (v : View sig κ sp s e) (f f' : v.ty.Contents Val) (h : v.read Val f = v.read Val f') :
    ∀ i ∈ v.set, f i = f' i := by
  intro i hi
  obtain ⟨y, -, rfl⟩ := Finset.mem_map.mp hi
  have hy := congrFun h y
  rw [View.read_apply, View.read_apply] at hy
  have hc : ∀ {A B : Type} (hAB : A = B) (a b : A), _root_.cast hAB a = _root_.cast hAB b → a = b := by
    intro A B hAB; subst hAB; intro a b hab; exact hab
  exact hc _ _ _ hy

end Cert.Proof.LibWholeView
-- ==== Proof.KIValue.lean ====
/-
  What a subcore's copies leave, read at one element.

  The subcore at grid point `L = (c, s)` is worker `w = 2 s + c`.  Its row buffer `[512, 128]` ends holding, at
  row `r`, the table row named by word `(4 w + r / 128, r % 128)` of the reshaped indices — the function `Rbuf`.
  Each gather's payload is `Rbuf` on its quarter of the buffer (the gather's row `k` of quarter `j` reads the table
  at the word the index buffer's row `j` holds at `k`, and the index buffer holds rows `4 w …` of the reshaped
  indices); the buffer after the four gathers therefore reads as `Rbuf` everywhere; and row `r` of quarter `j` of the
  subcore's rows of the result is row `512 w + 128 j + r` of the result, where `Gout` is `Rbuf` at `128 j + r`.
-/
import proofs.«216249_g22557168238913_cont_8to1_658_3_alg».proof.Proof.KISetup
import proofs.«216249_g22557168238913_cont_8to1_658_3_alg».proof.Proof.LibWholeView
import Idealize.ShloMosaic.Lib.Writes
import Idealize.ShloMosaic.Lib.SparseCore.Stream

noncomputable section

namespace Cert.Proof.KI

open Cert.KernelIdeal

open Idealize.ShloMosaic
open Idealize.ShloMosaic.SparseCore (S V T)
open Idealize.ShloMosaic.ValueIdx
open Cert.Proof.Spec (rowOf)

variable {F : FTy → Type}

variable (m : (ℓ : Loc nD τ sig) → Buf (Elt F) ℓ) (d : Dev nD) (L : grid0.Coords)

omit m d in
theorem L0_lt : (L 0).val < 2 := (L 0).isLt
omit m d in
theorem L1_lt : (L 1).val < 16 := (L 1).isLt

/-- What the subcore's row buffer ends holding. -/
def Rbuf : S512x128.Idx → Elt F .f32 := fun y =>
  (m (tLoc d) : S1000x128.Idx → Elt F .f32)
    (ix2 (rowOf ((V0 m d : S128x128.Idx → BitVec 32)
      (ix2 (⟨8 * (L 1).val + 4 * (L 0).val + (y 0).val / 128, by
          have := L0_lt L; have := L1_lt L; have h : (y 0).val < 512 := (y 0).isLt; omega⟩ : Fin 128)
        (⟨(y 0).val % 128, Nat.mod_lt _ (by decide)⟩ : Fin 128))))
      (⟨(y 1).val, (y 1).isLt⟩ : Fin 128))

/-! ## The views' placements -/

omit m d in
/-- Row `z 0` of the subcore's index rows is row `4 w + z 0` of the reshaped indices. -/
theorem idxM_emb (z : S4x128.Idx) :
    ((idxM L).view.emb z : S128x128.Idx)
      = ix2 (⟨8 * (L 1).val + 4 * (L 0).val + (z 0).val, by
          have := L0_lt L; have := L1_lt L; have h : (z 0).val < 4 := (z 0).isLt; omega⟩ : Fin 128)
        (⟨(z 1).val, (z 1).isLt⟩ : Fin 128) := by
  funext a
  match a with
  | ⟨0, _⟩ =>
    refine Fin.ext ?_
    show (k0_off1 L) 0 + 1 * (z 0).val = 8 * (L 1).val + 4 * (L 0).val + (z 0).val
    rw [Gen.k0_off1_eq]; show 8 * (L 1).val + 4 * (L 0).val + 1 * (z 0).val = _; omega
  | ⟨1, _⟩ =>
    refine Fin.ext ?_
    show (k0_off1 L) 1 + 1 * (z 1).val = (z 1).val
    rw [Gen.k0_off1_eq]; show 0 + 1 * (z 1).val = _; omega

/-! ## The index buffer's rows -/

omit m d L in
theorem inbI (j : Fin 4) : ∀ a, (![j.val, 0] : Fin 2 → Nat) a + S1x128.size a ≤ S4x128.size a := by
  intro a
  have := j.isLt
  match a with
  | ⟨0, _⟩ => show j.val + 1 ≤ 4; omega
  | ⟨1, _⟩ => show 0 + 128 ≤ 128; omega

/-- Row `j` of the index buffer, as a list of 128 words: what gather `j` reads its offsets from. -/
abbrev rowV (j : Fin 4) : Memref sig .scVector .vmem S128 .i32 :=
  (sI.slice (Rect.unit (s := S4x128) ![j.val, 0] S1x128.size (inbI j)) (fun _ => rfl)).squeeze S128 Facts₀.squeezes_S1x128_S128

omit m d L in
/-- Word `z` of that list is word `(j, z)` of the buffer. -/
theorem rowV_emb (j : Fin 4) (z : S128.Idx) :
    ((rowV j).view.emb z : S4x128.Idx) = ix2 (⟨j.val, j.isLt⟩ : Fin 4) (⟨(z 0).val, (z 0).isLt⟩ : Fin 128) := by
  have e : Shape.reshapeEquiv (Facts₀.squeezes_S1x128_S128 (self := Gen.facts₀)).numel_eq z
      = (ix2 (⟨0, Nat.one_pos⟩ : Fin 1) (⟨(z 0).val, (z 0).isLt⟩ : Fin 128) : S1x128.Idx) :=
    Shape.reshapeEquiv_eq_of_rowMajor _ (by
      rw [Shape.rowMajor_val_two, Shape.rowMajor_val_one]
      show 0 * 128 + (z 0).val = (z 0).val
      omega)
  show (Rect.unit (s := S4x128) ![j.val, 0] S1x128.size (inbI j)).emb (Shape.reshapeEquiv _ z) = _
  rw [e]
  funext a
  match a with
  | ⟨0, _⟩ => exact Fin.ext (show j.val + 1 * 0 = j.val by omega)
  | ⟨1, _⟩ => exact Fin.ext (show 0 + 1 * (z 0).val = (z 0).val by omega)

/-- After the index copy, word `z` of row `j` of the index buffer is word `(4 w + j, z)` of the reshaped indices. -/
theorem rowV_read (j : Fin 4) (fi : Buf (Elt F) ((V d ((L 0).castLE Facts₀.hcore0) ((L 1).castLE Facts₀.hsub0)).loc cc0_scratch0)) (z : S128.Idx) :
    View.read (Elt F) (rowV j).view (View.write (Elt F) sI.view fi (ReadAs.same.apply (View.read (Elt F) (idxM L).view (V0 m d))) Finset.univ) z
      = (V0 m d : S128x128.Idx → BitVec 32) (ix2 (⟨8 * (L 1).val + 4 * (L 0).val + j.val, by
          have := L0_lt L; have := L1_lt L; have := j.isLt; omega⟩ : Fin 128) (⟨(z 0).val, (z 0).isLt⟩ : Fin 128)) := by
  rw [View.write_whole_univ]
  rw [(View.read_apply _ _).trans (cast_eq _ _)]
  show View.read (Elt F) (idxM L).view (V0 m d) ((rowV j).view.emb z) = _
  rw [rowV_emb, (View.read_apply _ _).trans (cast_eq _ _), idxM_emb]

/-! ## A gather's payload -/

omit m d L in
/-- The rows a list of 128 words names: entry `k` is word `k`. -/
theorem rows_val (idx : S128.Idx → Elt F .i32) {z : ℕ} (hn : S128.numel = 128) (h : ∀ x, (idx x : BitVec 32).toNat < z) (k : Fin 128) :
    (SparseCore.rows (F := F) idx hn h k).val = (idx (ix1 k) : BitVec 32).toNat := by
  show (idx (S128.rowMajor.symm (k.cast hn.symm)) : BitVec 32).toNat = _
  congr 2
  refine (Equiv.symm_apply_eq _).mpr (Fin.ext ?_)
  rw [Shape.rowMajor_val_one]
  rfl

/-- The table, as the gathers name it, reads as the table. -/
abbrev tblS : Memref sig .scVector .hbm S1000x128 .f32 :=
  tblW.slice (Rect.unit (s := S1000x128) ![0, 0] S1000x128.size Facts₀.inb_S1000x128_S1000x128_0_0) (fun _ => rfl)

omit L in
theorem tblS_read (z : S1000x128.Idx) :
    View.read (Elt F) tblS.view (m (tLoc d)) z = (m (tLoc d) : S1000x128.Idx → Elt F .f32) z := by
  rw [(View.read_apply _ _).trans (cast_eq _ _)]
  refine congrArg (m (tLoc d) : S1000x128.Idx → Elt F .f32) ?_
  funext a
  match a with
  | ⟨0, _⟩ => exact Fin.ext (show 0 + 1 * (z 0).val = (z 0).val by omega)
  | ⟨1, _⟩ => exact Fin.ext (show 0 + 1 * (z 1).val = (z 1).val by omega)

/-- Gather `j`'s payload at `(r, c)` is `Rbuf` at `(128 j + r, c)`. -/
theorem gather_val (j : Fin 4) (fi : Buf (Elt F) ((V d ((L 0).castLE Facts₀.hcore0) ((L 1).castLE Facts₀.hsub0)).loc cc0_scratch0))
    (hn : S128.numel = 128)
    (hin : ∀ x, (View.read (Elt F) (rowV j).view
      (View.write (Elt F) sI.view fi (ReadAs.same.apply (View.read (Elt F) (idxM L).view (V0 m d))) Finset.univ) x : BitVec 32).toNat < 1000)
    (y : S128x128.Idx) :
    SparseCore.gatherPayload (F := F) (Facts₀.gathers_S1000x128_S128x128 (self := Gen.facts₀)) (View.read (Elt F) tblS.view (m (tLoc d)))
        (SparseCore.rows (View.read (Elt F) (rowV j).view
          (View.write (Elt F) sI.view fi (ReadAs.same.apply (View.read (Elt F) (idxM L).view (V0 m d))) Finset.univ)) hn hin) y
      = Rbuf m d L (ix2 (⟨128 * j.val + (y 0).val, by have := j.isLt; have h : (y 0).val < 128 := (y 0).isLt; omega⟩ : Fin 512)
          (⟨(y 1).val, (y 1).isLt⟩ : Fin 128)) := by
  have hy0 : (y 0).val < 128 := (y 0).isLt
  have hj := j.isLt
  show View.read (Elt F) tblS.view (m (tLoc d)) _ = _
  rw [tblS_read]
  unfold Rbuf
  refine congrArg (m (tLoc d) : S1000x128.Idx → Elt F .f32) ?_
  funext a
  match a with
  | ⟨0, _⟩ =>
    refine Fin.ext ?_
    have h0 := congrArg Fin.val (Shape.Gathers.idx_axis (Facts₀.gathers_S1000x128_S128x128 (self := Gen.facts₀))
      (SparseCore.rows (View.read (Elt F) (rowV j).view
          (View.write (Elt F) sI.view fi (ReadAs.same.apply (View.read (Elt F) (idxM L).view (V0 m d))) Finset.univ)) hn hin) y)
    refine h0.trans ((rows_val (F := F) _ hn hin (y 0)).trans ?_)
    rw [rowV_read]
    have hlt := hin (ix1 (y 0))
    rw [rowV_read] at hlt
    have key : ∀ (I I' : S128x128.Idx), I' = I → ((V0 m d : S128x128.Idx → BitVec 32) I).toNat < 1000 →
        ((V0 m d : S128x128.Idx → BitVec 32) I).toNat = (rowOf ((V0 m d : S128x128.Idx → BitVec 32) I')).val := by
      intro I I' h hl; subst h; exact (Cert.Proof.Spec.rowOf_val_of_lt hl).symm
    refine key _ _ ?_ hlt
    funext b
    match b with
    | ⟨0, _⟩ => exact Fin.ext (show 8 * (L 1).val + 4 * (L 0).val + (128 * j.val + (y 0).val) / 128 = 8 * (L 1).val + 4 * (L 0).val + j.val by omega)
    | ⟨1, _⟩ => exact Fin.ext (show (128 * j.val + (y 0).val) % 128 = (y 0).val by omega)
  | ⟨1, _⟩ =>
    refine Fin.ext ?_
    exact Shape.Gathers.idx_of_ne (Facts₀.gathers_S1000x128_S128x128 (self := Gen.facts₀)) _ y ⟨1, by decide⟩ (by decide)

/-! ## The row buffer after the four gathers, and the result's quarters -/

omit m d L in
theorem inbR (j : Fin 4) : ∀ a, (![128 * j.val, 0] : Fin 2 → Nat) a + S128x128.size a ≤ S512x128.size a := by
  intro a
  have := j.isLt
  match a with
  | ⟨0, _⟩ => show 128 * j.val + 128 ≤ 512; omega
  | ⟨1, _⟩ => show 0 + 128 ≤ 128; omega

/-- Quarter `j` of the row buffer. -/
abbrev rectR (j : Fin 4) : Rect S512x128 := Rect.unit (s := S512x128) ![128 * j.val, 0] S128x128.size (inbR j)

omit m d L in
theorem rectR_emb (j : Fin 4) (y : S128x128.Idx) :
    ((rectR j).emb y : S512x128.Idx)
      = ix2 (⟨128 * j.val + (y 0).val, by have := j.isLt; have h : (y 0).val < 128 := (y 0).isLt; omega⟩ : Fin 512)
          (⟨(y 1).val, (y 1).isLt⟩ : Fin 128) := by
  funext a
  match a with
  | ⟨0, _⟩ => exact Fin.ext (show 128 * j.val + 1 * (y 0).val = 128 * j.val + (y 0).val by omega)
  | ⟨1, _⟩ => exact Fin.ext (show 0 + 1 * (y 1).val = (y 1).val by omega)

omit m d L in
theorem emb_mem {s : Shape} (r : Rect s) (y : r.shape.Idx) : r.emb y ∈ r.set := by
  rw [← Rect.map_emb_univ]; exact Finset.mem_map_of_mem _ (Finset.mem_univ _)

/-- After the four gathers, each of whose payloads is `Rbuf` on its quarter, the row buffer reads as `Rbuf` on every quarter. -/
theorem rowbuf_read (fr : Buf (Elt F) ((V d ((L 0).castLE Facts₀.hcore0) ((L 1).castLE Facts₀.hsub0)).loc cc0_scratch1))
    (g0 g1 g2 g3 : S128x128.Idx → Elt F .f32)
    (h0 : ∀ y, g0 y = Rbuf m d L ((rectR 0).emb y)) (h1 : ∀ y, g1 y = Rbuf m d L ((rectR 1).emb y))
    (h2 : ∀ y, g2 y = Rbuf m d L ((rectR 2).emb y)) (h3 : ∀ y, g3 y = Rbuf m d L ((rectR 3).emb y))
    (j : Fin 4) (y : S128x128.Idx) :
    View.read (Elt F) sR.view (sR.view.writes (Elt F) fr [⟨rectR 3, g3⟩, ⟨rectR 2, g2⟩, ⟨rectR 1, g1⟩, ⟨rectR 0, g0⟩]) ((rectR j).emb y)
      = Rbuf m d L ((rectR j).emb y) := by
  refine View.read_writes_apply_of_pieces sR.view fr (Rbuf m d L) _ ?_ _ ?_
  · intro p hp x
    simp only [List.mem_cons, List.not_mem_nil, or_false] at hp
    rcases hp with rfl | rfl | rfl | rfl
    · exact h3 x
    · exact h2 x
    · exact h1 x
    · exact h0 x
  · have hex : ∃ p ∈ ([⟨rectR 3, g3⟩, ⟨rectR 2, g2⟩, ⟨rectR 1, g1⟩, ⟨rectR 0, g0⟩] : List (View.Piece (Elt F) S512x128 .f32)), p.1 = rectR j := by
      match j with
      | ⟨0, _⟩ => exact ⟨⟨rectR 0, g0⟩, by simp, rfl⟩
      | ⟨1, _⟩ => exact ⟨⟨rectR 1, g1⟩, by simp, rfl⟩
      | ⟨2, _⟩ => exact ⟨⟨rectR 2, g2⟩, by simp, rfl⟩
      | ⟨3, _⟩ => exact ⟨⟨rectR 3, g3⟩, by simp, rfl⟩
    obtain ⟨p, hp, hp1⟩ := hex
    refine ⟨p, hp, ?_⟩
    rw [hp1]
    exact emb_mem (rectR j) y

omit m in
/-- Reading quarter `j` of the row buffer is reading the buffer at the quarter's rows. -/
theorem slice_read (j : Fin 4) (C : Buf (Elt F) ((V d ((L 0).castLE Facts₀.hcore0) ((L 1).castLE Facts₀.hsub0)).loc cc0_scratch1)) (y : S128x128.Idx) :
    View.read (Elt F) (sR.slice (rectR j) (fun _ => rfl)).view C y = View.read (Elt F) sR.view C ((rectR j).emb y) := by
  rw [View.read_apply, View.read_apply]; rfl

/-- Row `r` of quarter `j` of the subcore's rows of the result: there `Gout` is `Rbuf` at row `128 j + r`. -/
theorem out_read (j : Fin 4) (y : S128x128.Idx) :
    View.read (Elt F) (outM L j).view (Gout m d) y = Rbuf m d L ((rectR j).emb y) := by
  have hj := j.isLt
  have hy0 : (y 0).val < 128 := (y 0).isLt
  have h0 := L0_lt L
  have h1 := L1_lt L
  rw [(View.read_apply _ _).trans (cast_eq _ _), rectR_emb]
  have e : ((outM L j).view.emb y : S16384x128.Idx)
      = ix2 (⟨1024 * (L 1).val + 512 * (L 0).val + 128 * j.val + (y 0).val, by omega⟩ : Fin 16384) (⟨(y 1).val, (y 1).isLt⟩ : Fin 128) := by
    funext a
    match a with
    | ⟨0, _⟩ =>
      refine Fin.ext ?_
      show (k0_off2 L (BitVec.ofNat 32 (128 * j.val))) 0 + 1 * (y 0).val = 1024 * (L 1).val + 512 * (L 0).val + 128 * j.val + (y 0).val
      rw [Gen.k0_off2_eq]
      show 1024 * (L 1).val + 512 * (L 0).val + 128 * j.val + 1 * (y 0).val = 1024 * (L 1).val + 512 * (L 0).val + 128 * j.val + (y 0).val
      omega
    | ⟨1, _⟩ =>
      refine Fin.ext ?_
      show (k0_off2 L (BitVec.ofNat 32 (128 * j.val))) 1 + 1 * (y 1).val = (y 1).val
      rw [Gen.k0_off2_eq]
      show 0 + 1 * (y 1).val = (y 1).val
      omega
  rw [e]
  unfold Gout GoutF Rbuf
  congr 4
  funext b
  match b with
  | ⟨0, _⟩ => exact Fin.ext (show (1024 * (L 1).val + 512 * (L 0).val + 128 * j.val + (y 0).val) / 128
      = 8 * (L 1).val + 4 * (L 0).val + (128 * j.val + (y 0).val) / 128 by omega)
  | ⟨1, _⟩ => exact Fin.ext (show (1024 * (L 1).val + 512 * (L 0).val + 128 * j.val + (y 0).val) % 128
      = (128 * j.val + (y 0).val) % 128 by omega)

/-- Quarter `j` of the subcore's rows of the result, after the copy of quarter `j` of the row buffer has landed in it,
    holds `Gout`. -/
theorem piece_congr (j : Fin 4) (fo : Buf (Elt F) (oLoc d))
    (fr : Buf (Elt F) ((V d ((L 0).castLE Facts₀.hcore0) ((L 1).castLE Facts₀.hsub0)).loc cc0_scratch1))
    (g0 g1 g2 g3 : S128x128.Idx → Elt F .f32)
    (h0 : ∀ y, g0 y = Rbuf m d L ((rectR 0).emb y)) (h1 : ∀ y, g1 y = Rbuf m d L ((rectR 1).emb y))
    (h2 : ∀ y, g2 y = Rbuf m d L ((rectR 2).emb y)) (h3 : ∀ y, g3 y = Rbuf m d L ((rectR 3).emb y)) :
    ∀ i ∈ (outM L j).view.set,
      (outM L j).view.writes (Elt F) fo [⟨Rect.whole S128x128, ReadAs.same.apply (View.read (Elt F) (sR.slice (rectR j) (fun _ => rfl)).view
        (sR.view.writes (Elt F) fr [⟨rectR 3, g3⟩, ⟨rectR 2, g2⟩, ⟨rectR 1, g1⟩, ⟨rectR 0, g0⟩]))⟩] i = Gout m d i := by
  refine Cert.Proof.LibWholeView.eq_on_set_of_read_eq (outM L j).view _ _ ?_
  rw [Cert.Proof.LibWholeView.read_writes_whole_cons]
  funext y
  show View.read (Elt F) (sR.slice (rectR j) (fun _ => rfl)).view _ y = _
  rw [slice_read d L j, rowbuf_read m d L fr g0 g1 g2 g3 h0 h1 h2 h3, out_read]

end Cert.Proof.KI

end
-- ==== Proof.KIBody.lean ====
/-
  One vector subcore's task.

  The subcore at grid point `L` holds a share of the table, its four rows of the reshaped indices and its four
  quarters of the result.  It copies the index rows into its index buffer and waits; starts four gathers, gather `j`
  reading index row `j` and landing in quarter `j` of its row buffer, each on a semaphore of its own; then, for each
  `j` in turn, waits for gather `j` and starts the copy of quarter `j` of the row buffer out to quarter `j` of its
  rows of the result — the four copies on ONE semaphore —; and last waits four times on that semaphore.  No copy's
  source or destination is touched between the first copy's start and the last wait, so after the four waits every
  copy has landed: quarter `j` of the subcore's rows of the result holds the table rows that index row `j` names.
-/
import proofs.«216249_g22557168238913_cont_8to1_658_3_alg».proof.Proof.KISetup
import proofs.«216249_g22557168238913_cont_8to1_658_3_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE Facts₀.hcore0
abbrev jV (L : grid0.Coords) : Fin τ.nSub := (L 1).castLE Facts₀.hsub0

/-- The subcore's six DMA semaphores: the index copy's, the four gathers', the copies-out's. -/
abbrev isem : DmaSem sig := cc0_scoped0.sem
abbrev gsem0 : DmaSem sig := ((cc0_scratch2.slice (Rect.unit (s := S4) ![0] S1.size Facts₀.inb_S4_S1_0)).squeeze S_ Facts₀.squeezes_S1_S_).sem
abbrev gsem1 : DmaSem sig := ((cc0_scratch2.slice (Rect.unit (s := S4) ![1] S1.size Facts₀.inb_S4_S1_1)).squeeze S_ Facts₀.squeezes_S1_S_).sem
abbrev gsem2 : DmaSem sig := ((cc0_scratch2.slice (Rect.unit (s := S4) ![2] S1.size Facts₀.inb_S4_S1_2)).squeeze S_ Facts₀.squeezes_S1_S_).sem
abbrev gsem3 : DmaSem sig := ((cc0_scratch2.slice (Rect.unit (s := S4) ![3] S1.size Facts₀.inb_S4_S1_3)).squeeze S_ Facts₀.squeezes_S1_S_).sem
abbrev osem : DmaSem sig := cc0_scratch3.sem

abbrev cell (s : DmaSem sig) : GSem nD τ sig := (V d (cV L) (jV L), SemLoc.dma s)

omit m in
theorem cell_ne {s s' : DmaSem sig} (h : s ≠ s') : cell d L s ≠ cell d L s' :=
  fun e => h (SemLoc.dma.inj (Prod.mk.inj e).2)

omit m in
theorem cell_mem (s : DmaSem sig) (hs : (SemLoc.dma s : SemLoc sig).isScoped .scVector = true) : cell d L s ∈ ownCells (V d (cV L) (jV L)) :=
  (mem_ownCells (g := cell d L s)).mpr ⟨rfl, hs⟩

/-- The subcore's other scoped cells. -/
abbrev restCells : Finset (GSem nD τ sig) :=
  ((((((ownCells (V d (cV L) (jV L))).erase (cell d L isem)).erase (cell d L gsem0)).erase (cell d L gsem1)).erase (cell d L gsem2)).erase (cell d L gsem3)).erase (cell d L osem)

omit m in
theorem ownSems0_V :
    (ownSems0 (V d (cV L) (jV L)) : sProp 𝕄)
      = iprop(semVal (cell d L isem) 0 ∗ semVal (cell d L gsem0) 0 ∗ semVal (cell d L gsem1) 0 ∗ semVal (cell d L gsem2) 0
          ∗ semVal (cell d L gsem3) 0 ∗ semVal (cell d L osem) 0 ∗ bigSep (restCells d L) fun g => semVal g 0) := by
  unfold SparseCore.Cfg.ownSems0
  have m0 : cell d L isem ∈ ownCells (V d (cV L) (jV L)) := cell_mem d L _ (by decide)
  have m1 : cell d L gsem0 ∈ (ownCells (V d (cV L) (jV L))).erase (cell d L isem) :=
    Finset.mem_erase.mpr ⟨cell_ne d L (by decide), cell_mem d L _ (by decide)⟩
  have m2 : cell d L gsem1 ∈ ((ownCells (V d (cV L) (jV L))).erase (cell d L isem)).erase (cell d L gsem0) :=
    Finset.mem_erase.mpr ⟨cell_ne d L (by decide), Finset.mem_erase.mpr ⟨cell_ne d L (by decide), cell_mem d L _ (by decide)⟩⟩
  have m3 : cell d L gsem2 ∈ (((ownCells (V d (cV L) (jV L))).erase (cell d L isem)).erase (cell d L gsem0)).erase (cell d L gsem1) :=
    Finset.mem_erase.mpr ⟨cell_ne d L (by decide), Finset.mem_erase.mpr ⟨cell_ne d L (by decide),
      Finset.mem_erase.mpr ⟨cell_ne d L (by decide), cell_mem d L _ (by decide)⟩⟩⟩
  have m4 : cell d L gsem3 ∈ ((((ownCells (V d (cV L) (jV L))).erase (cell d L isem)).erase (cell d L gsem0)).erase (cell d L gsem1)).erase (cell d L gsem2) :=
    Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L _ (by decide)⟩⟩⟩⟩
  have m5 : cell d L osem ∈ (((((ownCells (V d (cV L) (jV L))).erase (cell d L isem)).erase (cell d L gsem0)).erase (cell d L gsem1)).erase (cell d L gsem2)).erase (cell d L gsem3) :=
    Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L _ (by decide)⟩⟩⟩⟩⟩
  rw [SparseCore.bigSep_erase' m0, SparseCore.bigSep_erase' m1, SparseCore.bigSep_erase' m2, SparseCore.bigSep_erase' m3,
    SparseCore.bigSep_erase' m4, SparseCore.bigSep_erase' m5]

/-- The subcore's other buffers. -/
abbrev restRefs : Finset (DevRef τ sig) :=
  ((ownRefs (τ := τ) (.scVector (cV L) (jV L))).erase ((Proc.scVector (cV L) (jV L)).devRef cc0_scratch0)).erase
    ((Proc.scVector (cV L) (jV L)).devRef cc0_scratch1)

omit m in
/-- The index buffer and the row buffer are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- The quarters of the subcore's rows of the result, as the kernel spells them. -/
abbrev outP0 : Memref sig .scVector .hbm S128x128 .f32 :=
  outW.slice (Rect.unit (s := S16384x128) (k0_off2 L 0#32) S128x128.size (Facts₀.k0_off2_inb L 0)) (fun _ => rfl)
abbrev outP1 : Memref sig .scVector .hbm S128x128 .f32 :=
  outW.slice (Rect.unit (s := S16384x128) (k0_off2 L 128#32) S128x128.size (Facts₀.k0_off2_inb L 1)) (fun _ => rfl)
abbrev outP2 : Memref sig .scVector .hbm S128x128 .f32 :=
  outW.slice (Rect.unit (s := S16384x128) (k0_off2 L 256#32) S128x128.size (Facts₀.k0_off2_inb L 2)) (fun _ => rfl)
abbrev outP3 : Memref sig .scVector .hbm S128x128 .f32 :=
  outW.slice (Rect.unit (s := S16384x128) (k0_off2 L 384#32) S128x128.size (Facts₀.k0_off2_inb L 3)) (fun _ => rfl)

omit m [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

omit m [FloatOps F] in
theorem pts_tbl (q : PosShare TreeShare) (f : Buf (Elt F) (tLoc d)) :
    (tblW.view.loc (V d (cV L) (jV L)) ↦{q} f : sProp 𝕄) = tLoc d ↦{q} f := rfl
omit m [FloatOps F] in
theorem pts_idx (f : Buf (Elt F) (vLoc d)) :
    ((idxM L).view.loc (V d (cV L) (jV L)) ↦[(idxM L).view.set]{fullShare} f : sProp 𝕄) = vLoc d ↦[idxSet L]{fullShare} f := rfl
omit m [FloatOps F] in
theorem pts_out0 (f : Buf (Elt F) (oLoc d)) :
    ((outP0 L).view.loc (V d (cV L) (jV L)) ↦[(outP0 L).view.set]{fullShare} f : sProp 𝕄) = oLoc d ↦[outSet L 0]{fullShare} f := rfl
omit m [FloatOps F] in
theorem pts_out1 (f : Buf (Elt F) (oLoc d)) :
    ((outP1 L).view.loc (V d (cV L) (jV L)) ↦[(outP1 L).view.set]{fullShare} f : sProp 𝕄) = oLoc d ↦[outSet L 1]{fullShare} f := rfl
omit m [FloatOps F] in
theorem pts_out2 (f : Buf (Elt F) (oLoc d)) :
    ((outP2 L).view.loc (V d (cV L) (jV L)) ↦[(outP2 L).view.set]{fullShare} f : sProp 𝕄) = oLoc d ↦[outSet L 2]{fullShare} f := rfl
omit m [FloatOps F] in
theorem pts_out3 (f : Buf (Elt F) (oLoc d)) :
    ((outP3 L).view.loc (V d (cV L) (jV L)) ↦[(outP3 L).view.set]{fullShare} f : sProp 𝕄) = oLoc d ↦[outSet L 3]{fullShare} f := rfl
omit m [FloatOps F] in
theorem pts_sI (f : Buf (Elt F) ((V d (cV L) (jV L)).loc cc0_scratch0)) :
    (sI.view.loc (V d (cV L) (jV L)) ↦{fullShare} f : sProp 𝕄) = (V d (cV L) (jV L)).loc cc0_scratch0 ↦{fullShare} f := rfl
omit m [FloatOps F] in
theorem pts_sR (f : Buf (Elt F) ((V d (cV L) (jV L)).loc cc0_scratch1)) :
    (sR.view.loc (V d (cV L) (jV L)) ↦{fullShare} f : sProp 𝕄) = (V d (cV L) (jV L)).loc cc0_scratch1 ↦{fullShare} f := rfl

/-- Every word of the reshaped indices names a row of the table. -/
theorem V0_lt (hpre : PreOK m) (d : Dev nD) (y : S128x128.Idx) : (V0 m d y : BitVec 32).toNat < 1000 := by
  rw [V0_apply]; exact hpre d _

/-- The gathers' offsets are in range: whatever the index buffer held before, once the index copy has landed in it,
    every word of any of its rows is a word of the reshaped indices, so below 1000 under the precondition. -/
theorem inb_of_pre (hpre : PreOK m) (g0 : Buf (Elt F) ((V d (cV L) (jV L)).loc cc0_scratch0))
    (pay : S4x128.Idx → Elt F .i32) (hpay : pay = (idxM L).view.read (Elt F) (V0 m d))
    (row : Fin 2 → Nat) (hk : ∀ a, row a + S1x128.size a ≤ S4x128.size a)
    (hq : (Rect.unit (s := S4x128) row S1x128.size hk).shape.Squeezes S128) :
    ∀ x, (View.read (Elt F) ((sI.slice (Rect.unit (s := S4x128) row S1x128.size hk) (fun _ => rfl)).squeeze S128 hq).view
        (View.write (Elt F) sI.view g0 pay Finset.univ) x).toNat < 1000 := by
  subst hpay; intro x
  rw [View.write_whole_univ]
  have e1 : ∀ y, (idxM L).view.read (Elt F) (V0 m d) y = V0 m d ((idxM L).view.emb y) :=
    fun y => (View.read_apply _ _).trans (cast_eq _ _)
  rw [(View.read_apply _ _).trans (cast_eq _ _), e1]
  exact V0_lt m hpre d _

set_option maxRecDepth 65536 in
set_option maxHeartbeats 4000000 in
set_option pp.maxSteps 8000 in
set_option pp.deepTerms false in
/-- The task on the vector subcore at `L` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tblW (Memref.isWhole_whole _) idxW (Memref.isWhole_whole _) outW (Memref.isWhole_whole _)
            sI (Memref.isWhole_whole _) sR (Memref.isWhole_whole _) cc0_scratch2 cc0_scratch3 cc0_scoped0)
          fun _ => iprop(tileRes m d L (Gout m d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold tileRes
  rw [bigSep_fin4, bigSep_fin4]
  iintro ⟨#Hlv, -, ⟨Ht, Hv, Ho0, Ho1, Ho2, Ho3⟩, ⟨⟨%fi, Hsi⟩, ⟨%fr, Hsr⟩, Hbufs⟩, ⟨Hci, Hc0, Hc1, Hc2, Hc3, Hco, Hsems⟩, HO⟩
  ihave Hmw := ((K (F := F)).mayWaits_none (thr := V d (cV L) (jV L)) hO) $$ Hlv
  ihave Ht' := (Entails.of_eq (pts_tbl (F := F) d L _ _).symm) $$ Ht
  ihave Htk := (Transfers.pointsTo_toks_split (tq L) 4) $$ Ht'
  icases Htk with ⟨Htd, Htks⟩
  ihave Htks' := (Entails.of_eq (bigSep_fin4 (F := F) _)) $$ Htks
  icases Htks' with ⟨Htk0, Htk1, Htk2, Htk3⟩
  ihave Hv' := (Entails.of_eq (pts_idx (F := F) d L _).symm) $$ Hv
  ihave Ho0' := (Entails.of_eq (pts_out0 (F := F) d L _).symm) $$ Ho0
  ihave Ho1' := (Entails.of_eq (pts_out1 (F := F) d L _).symm) $$ Ho1
  ihave Ho2' := (Entails.of_eq (pts_out2 (F := F) d L _).symm) $$ Ho2
  ihave Ho3' := (Entails.of_eq (pts_out3 (F := F) d L _).symm) $$ Ho3
  ihave Hsi' := (Entails.of_eq (pts_sI (F := F) d L _).symm) $$ Hsi
  ihave Hsr' := (Entails.of_eq (pts_sR (F := F) d L _).symm) $$ Hsr
  have plan : Transfers.BatchOf (V d (cV L) (jV L)) (SemLoc.dma (sig := sig) osem) 4 := trivial
  sl_exec
  have hin0 := fun g => inb_of_pre m d L hpre g (tile_body.sl.dma0 m d L) rfl ![0, 0] Facts₀.inb_S4x128_S1x128_0_0 Facts₀.squeezes_S1x128_S128
  have hin1 := fun g => inb_of_pre m d L hpre g (tile_body.sl.dma0 m d L) rfl ![1, 0] Facts₀.inb_S4x128_S1x128_1_0 Facts₀.squeezes_S1x128_S128
  have hin2 := fun g => inb_of_pre m d L hpre g (tile_body.sl.dma0 m d L) rfl ![2, 0] Facts₀.inb_S4x128_S1x128_2_0 Facts₀.squeezes_S1x128_S128
  have hin3 := fun g => inb_of_pre m d L hpre g (tile_body.sl.dma0 m d L) rfl ![3, 0] Facts₀.inb_S4x128_S1x128_3_0 Facts₀.squeezes_S1x128_S128
  sl_exec
  sl_step
  -- what the four gathers landed, each on its quarter of the row buffer
  have hg0 : ∀ y, tile_body.sl.gather0 m d L fi hin0 y = Rbuf m d L ((rectR 0).emb y) :=
    fun y => (gather_val m d L 0 fi rfl (hin0 fi) y).trans (congrArg (Rbuf m d L) (rectR_emb 0 y).symm)
  have hg1 : ∀ y, tile_body.sl.gather1 m d L fi hin1 y = Rbuf m d L ((rectR 1).emb y) :=
    fun y => (gather_val m d L 1 fi rfl (hin1 fi) y).trans (congrArg (Rbuf m d L) (rectR_emb 1 y).symm)
  have hg2 : ∀ y, tile_body.sl.gather2 m d L fi hin2 y = Rbuf m d L ((rectR 2).emb y) :=
    fun y => (gather_val m d L 2 fi rfl (hin2 fi) y).trans (congrArg (Rbuf m d L) (rectR_emb 2 y).symm)
  have hg3 : ∀ y, tile_body.sl.gather3 m d L fi hin3 y = Rbuf m d L ((rectR 3).emb y) :=
    fun y => (gather_val m d L 3 fi rfl (hin3 fi) y).trans (congrArg (Rbuf m d L) (rectR_emb 3 y).symm)
  isplitl [Htd Htk0 Htk1 Htk2 Htk3 Hv' Ho0' Ho1' Ho2' Ho3']
  · isplitl [Htd Htk0 Htk1 Htk2 Htk3]
    · iapply (Entails.of_eq (pts_tbl (F := F) d L _ _))
      iapply (Transfers.pointsTo_toks_join (tq L) 4)
      isplitl [Htd]; · iexact Htd
      rw [bigSep_fin4]
      isplitl [Htk0]; · iexact Htk0
      isplitl [Htk1]; · iexact Htk1
      isplitl [Htk2]; · iexact Htk2
      iexact Htk3
    isplitl [Hv']; · iexact Hv'
    isplitl [Ho0']
    · iapply (Entails.of_eq (pointsTo_congr (piece_congr m d L 0 (m (oLoc d)) fr _ _ _ _ hg0 hg1 hg2 hg3))); iexact Ho0'
    isplitl [Ho1']
    · iapply (Entails.of_eq (pointsTo_congr (piece_congr m d L 1 (m (oLoc d)) fr _ _ _ _ hg0 hg1 hg2 hg3))); iexact Ho1'
    isplitl [Ho2']
    · iapply (Entails.of_eq (pointsTo_congr (piece_congr m d L 2 (m (oLoc d)) fr _ _ _ _ hg0 hg1 hg2 hg3))); iexact Ho2'
    · iapply (Entails.of_eq (pointsTo_congr (piece_congr m d L 3 (m (oLoc d)) fr _ _ _ _ hg0 hg1 hg2 hg3))); iexact Ho3'
  isplitl [Hsi' Hsr' Hbufs]
  · isplitl [Hsi']; · iexists _; iexact Hsi'
    isplitl [Hsr']; · iexists _; iexact Hsr'
    iexact Hbufs
  isplitl [Hci Hc0 Hc1 Hc2 Hc3 Hco Hsems]
  · isplitl [Hci]; · iexact Hci
    isplitl [Hc0]; · iexact Hc0
    isplitl [Hc1]; · iexact Hc1
    isplitl [Hc2]; · iexact Hc2
    isplitl [Hc3]; · iexact Hc3
    isplitl [Hco]; · iexact Hco
    iexact Hsems
  iexists _
  isplitr
  swap
  · iexact HO
  ipureintro
  intro p hp
  simp only [Finset.mem_insert] at hp
  rcases hp with rfl | rfl | rfl | rfl | rfl | rfl | rfl | rfl | rfl | hp
  all_goals first | exact .inl hp | exact .inr rfl

end Tile

end Cert.Proof.KI

end
-- ==== Proof.PreWord.lean ====
/-
  The precondition, read at one index word.

  The precondition says, among other things, that every index word `v` satisfies `0 ≤ v` and `v ≤ 999` as signed
  words, the conjunction taken over all words.  So every index word, read as a natural number, is below 1000.
-/
import proofs.«216249_g22557168238913_cont_8to1_658_3_alg».proof.Pre_input_domain
import proofs.«216249_g22557168238913_cont_8to1_658_3_alg».proof.Proof.Gen.Pre_input_domain
import Idealize.ShloMosaic.Lib.ReduceAll
import Idealize.ShloMosaic.Lib.ValueIdx

noncomputable section

namespace Cert.Proof.PreWord

open Idealize.ShloMosaic

/-- A word that is at least 0 and at most 999 as a signed word is below 1000 as a natural number. -/
theorem word_lt (v : BitVec 32) (e1 : IntOp.cmpi .sge v 0#32 = 1#1) (e2 : IntOp.cmpi .sle v 999#32 = 1#1) : v.toNat < 1000 := by
  have h1 : (0#32 : BitVec 32).toInt ≤ v.toInt := by
    by_contra hn
    have e : IntOp.cmpi .sge v 0#32 = BitVec.ofBool (decide ((0#32 : BitVec 32).toInt ≤ v.toInt)) := rfl
    rw [e, decide_eq_false hn] at e1
    exact absurd e1 (by decide)
  have h2 : v.toInt ≤ (999#32 : BitVec 32).toInt := by
    by_contra hn
    have e : IntOp.cmpi .sle v 999#32 = BitVec.ofBool (decide (v.toInt ≤ (999#32 : BitVec 32).toInt)) := rfl
    rw [e, decide_eq_false hn] at e2
    exact absurd e2 (by decide)
  have e := BitVec.toInt_eq_toNat_cond v
  have z : (0#32 : BitVec 32).toInt = 0 := by decide
  have n : (999#32 : BitVec 32).toInt = 999 := by decide
  have hb := v.isLt
  omega

/-- Where the precondition's function is all ones, every index word is below 1000. -/
theorem idx_lt {F : FTy → Type} [FloatOps F] (a0 : IVec Cert.Pre_input_domain.S16384 32) (a1 : FVec F Cert.Pre_input_domain.S1000x128 .f32)
    (h : Cert.Pre_input_domain.fn (F := F) a0 a1 = fun _ => 1#1) (x : Cert.Pre_input_domain.S16384.Idx) : (a0 x).toNat < 1000 := by
  have e := congrFun h ValueIdx.ix0
  dsimp only [Cert.Pre_input_domain.fn] at e
  obtain ⟨-, e9⟩ := IntOp.andi_eq_one.1 e
  haveI : Subsingleton Cert.Pre_input_domain.S_.Idx := ⟨fun a b => funext fun k => k.elim0⟩
  have e8 := Host.reduce_andi_all _ _ _ _ _ e9 x
  obtain ⟨ege, ele⟩ := IntOp.andi_eq_one.1 e8
  exact word_lt _ ege ele

end Cert.Proof.PreWord

end
-- ==== Proof.KILaunch.lean ====
/-
  The launch: from the subcores' tasks to the program's run.

  The launch theorem for SparseCore programs asks for: each subcore's task (the body); how a SparseCore's
  operands split among its sixteen subcores (here a SparseCore is handed exactly its subcores' pieces, so the
  split is the identity); the launch element of the ghost state (the handshakes' rounds; the transfers' counters
  need nothing); @main on the TensorCore — the reshape of the indices, then the call, which takes the table, the
  reshaped indices and the result split into the 32 subcores' pieces and brings them back with the result at
  `Gout` —; and how the final memory reads the claim.
-/
import proofs.«216249_g22557168238913_cont_8to1_658_3_alg».proof.Proof.KIBody
import proofs.«216249_g22557168238913_cont_8to1_658_3_alg».proof.Proof.PreWord

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

theorem defs₀_vector (c : Fin τ.nSC) (s : Fin τ.nSub) :
    defs₀ (F := F) (.scVector c s) 0 ()
      = SparseCore.onTile Facts₀.hcore0 Facts₀.hsub0 (fun c s => cc0_k (coordsV c s)
          tblW (Memref.isWhole_whole _) idxW (Memref.isWhole_whole _) outW (Memref.isWhole_whole _)
          sI (Memref.isWhole_whole _) sR (Memref.isWhole_whole _) cc0_scratch2 cc0_scratch3 cc0_scoped0) ⟨⟩ c s := rfl

omit m [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

omit m [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tileRes m d (Lc (Fin.cast nCore_zero c) i) (m (oLoc d))) ⊢ |={Set.univ}=> iprop(
      (bigSep Finset.univ fun i : Fin ((K (F := F)).nSub 0) => tileRes m d (Lc (Fin.cast nCore_zero c) (Fin.cast nSub_zero i)) (m (oLoc d)))
      ∗ ((bigSep Finset.univ fun i : Fin ((K (F := F)).nSub 0) => tileRes m d (Lc (Fin.cast nCore_zero c) (Fin.cast nSub_zero i)) (Gout m d))
          -∗ bigSep Finset.univ fun i : Fin 16 => tileRes m d (Lc (Fin.cast nCore_zero c) i) (Gout m d)))
  rw [bigSep_tasks (F := F) (fun i => tileRes m d (Lc (Fin.cast nCore_zero c) i) (m (oLoc d))),
    bigSep_tasks (F := F) (fun i => tileRes m d (Lc (Fin.cast nCore_zero c) i) (Gout m d))]
  iintro H; imodintro
  isplitl [H]; · iexact H
  iintro H; iexact H

/-! ## The launch element: the handshakes' rounds; nothing of the kernel's own -/

def u₀ : UU := (initOf (K (F := F)).hsCells (K (F := F)).hsToks, 1)

omit m [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays, all unscoped: the indices, the table, the reshaped indices, the result. -/
abbrev S4 : Finset (DevRef τ sig) := {a', t', v', o'}

omit m [FloatOps F] in
theorem held_S4 (d : Dev nD) (W : Valuation τ sig (Elt F)) :
    (held (T d) S4 W : sProp 𝕄) = iprop((aLoc d ↦{fullShare} W a') ∗ (tLoc d ↦{fullShare} W t') ∗ (vLoc d ↦{fullShare} W v') ∗ oLoc d ↦{fullShare} W o') := by
  unfold held S4
  rw [SparseCore.bigSep_insert' (by decide), SparseCore.bigSep_insert' (by decide), SparseCore.bigSep_insert' (by decide), bigSep_singleton]

omit m [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (vLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (Vl m d) := by
  rw [unscopedBufs_eq, held_S4]; rfl

theorem Vr_a (d : Dev nD) : Vr m d a' = m (aLoc d) :=
  (opReshape (F := F)).result_of_not_mem (Vl m d) (b := a') (show a' ∉ ({v'} : Finset (DevRef τ sig)) by decide)
theorem Vr_t (d : Dev nD) : Vr m d t' = m (tLoc d) :=
  (opReshape (F := F)).result_of_not_mem (Vl m d) (b := t') (show t' ∉ ({v'} : Finset (DevRef τ sig)) by decide)
theorem Vr_o (d : Dev nD) : Vr m d o' = m (oLoc d) :=
  (opReshape (F := F)).result_of_not_mem (Vl m d) (b := o') (show o' ∉ ({v'} : Finset (DevRef τ sig)) by decide)

theorem hRe : (opReshape (F := F)).bufs ⊆ S4 := show ({a', v'} : Finset (DevRef τ sig)) ⊆ S4 by decide

/-- What the call takes for the two SparseCores, and what it hands back: the three arrays whole. -/
theorem st0_eq (d : Dev nD) : (bigSep Finset.univ fun c : Fin ((K (F := F)).nCore 0) => (P m).st 0 d c)
    = iprop((tLoc d ↦{fullShare} m (tLoc d)) ∗ (vLoc d ↦{fullShare} V0 m d) ∗ (oLoc d ↦{fullShare} m (oLoc d))) := by
  rw [arrays_split]
  exact bigSep_congr fun c _ => rfl
theorem dn0_eq (d : Dev nD) : (bigSep Finset.univ fun c : Fin ((K (F := F)).nCore 0) => (P m).dn 0 d c)
    = iprop((tLoc d ↦{fullShare} m (tLoc d)) ∗ (vLoc d ↦{fullShare} V0 m d) ∗ (oLoc d ↦{fullShare} Gout m d)) := by
  rw [arrays_split]
  exact bigSep_congr fun c _ => rfl

/-- What @main leaves the claim: the indices and the table at their launch contents, the result at `Gout`. -/
abbrev FIN (d : Dev nD) : sProp 𝕄 := iprop((aLoc d ↦{fullShare} m (aLoc d)) ∗ (tLoc d ↦{fullShare} m (tLoc d)) ∗ (oLoc d ↦{fullShare} Gout m d))

/-- @main on device `d`'s TensorCore: the reshape, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opReshape) (S := S4) hRe (V := Vl m d)) $$ [Hb Hheld]
  · isplitl [Hb]; · iexact Hb
    iexact Hheld
  iintro ⟨Hb, Hheld⟩
  ihave Hh := (Entails.of_eq (held_S4 (F := F) d _)) $$ Hheld
  icases Hh with ⟨Ha, Ht, Hv, Ho⟩
  rw [show (opReshape (F := F)).result (Vl m d) = Vr m d from rfl, Vr_a, Vr_t, Vr_o]
  rw [wp_ret]
  iapply ((K (F := F)).wp_run (D (F := F)) 𝒱 (EH := EH) (P := P m) κ d 0) $$ [Hst Ht Hv Ho Ha]
  isplitr; · iexact Hctx
  isplitl [Hst]; · iexact Hst
  isplitl [Ht Hv Ho]
  · rw [st0_eq]
    isplitl [Ht]; · iexact Ht
    isplitl [Hv]; · iexact Hv
    iexact Ho
  iintro ⟨Hst, Hdn⟩
  ihave Hdn' := (Entails.of_eq (dn0_eq m d)) $$ Hdn
  icases Hdn' with ⟨Ht, -, Ho⟩
  imodintro
  isplitl [Hst]; · iexact Hst
  isplitl [Ha]; · iexact Ha
  isplitl [Ht]; · iexact Ht
  iexact Ho

def fq (d : Dev nD) (s' : Phys nD τ sig (Elt F)) : Prop :=
  s'.mem.mem (oLoc d) = Gout m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gout m c ∧ r.2.mem (aLoc c) = m (aLoc c) ∧ r.2.mem (tLoc c) = m (tLoc c)

/-- Under the precondition's fact, every weakly fair execution of the device's threads ends, nothing faulting, with the
    result at `Gout` and the two arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The precondition gives what the proof asks of the launch memory. -/
theorem ok_of_pre (h : ∀ c : Dev nD, Cert.Pre_input_domain.fn (F := F) (m ((c.tc : Thread nD τ).loc main_arg0)) (m ((c.tc : Thread nD τ).loc main_arg1)) = fun _ => 1#1) :
    PreOK m :=
  fun d x => Cert.Proof.PreWord.idx_lt _ _ (h d) x

end Cert.Proof.KI

end
-- ==== Proof.KBSetup.lean ====
/-
  The embedding lookup on the SparseCore: what its parts share.

  The kernel runs on the 32 vector subcores (2 SparseCores of 16) of the device.  Subcore (c, s) is worker
  w = 2 s + c; it owns rows 512 w … 512 w + 511 of the result and rows 4 w … 4 w + 3 of the index array
  reshaped to [128, 128] (the same 512 indices).  It copies its four index rows into its own memory, gathers, for
  each of them, the 128 table rows the indices name into a quarter of a [512, 128] buffer, and copies each
  quarter out to its 128 rows of the result.  So row i of the result is row inputs[i] of the table.

  Here: the program as the launch theorem sees it; the ghost state (the launch handshakes' rounds beside the
  transfers' counters); the arrays' locations; the reshaped index array `V0`; the result `Gout` as ONE function
  of the table and the indices; the pieces of the arrays a subcore is handed, and how the whole arrays split
  into them.
-/
import proofs.«216249_g22557168238913_cont_8to1_658_3_alg».proof.Defs
import Idealize.ShloMosaic.Lib.SparseCore.Launch
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import Idealize.ShloMosaic.Lib.ValueIdx
import Idealize.ShloMosaic.Lib.Pipeline.Value
import proofs.«216249_g22557168238913_cont_8to1_658_3_alg».proof.Proof.Gen.Kernel
import proofs.«216249_g22557168238913_cont_8to1_658_3_alg».proof.Proof.Gen.Kernel.Skeleton
import proofs.«216249_g22557168238913_cont_8to1_658_3_alg».proof.Proof.LibNestedSplit
import proofs.«216249_g22557168238913_cont_8to1_658_3_alg».proof.Proof.Spec

noncomputable section

namespace Cert.Proof.KB

open Cert.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The indices (`inputs`), the table, the indices reshaped to [128, 128], the result: as locations of device `d`. -/
abbrev aLoc (d : Dev nD) : Loc nD τ sig := (SparseCore.T d).loc main_arg0
abbrev tLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

abbrev a' : DevRef τ sig := Proc.devRef .tc (main_arg0 : Ref sig .tc)
abbrev t' : DevRef τ sig := Proc.devRef .tc (main_arg1 : Ref sig .tc)
abbrev v' : DevRef τ sig := Proc.devRef .tc (main_v0 : Ref sig .tc)
abbrev o' : DevRef τ sig := Proc.devRef .tc (main_v1 : Ref sig .tc)

/-- @main's one host operation: the reshape of the indices. -/
abbrev opReshape : HloOp τ sig (Elt F) := StableHlo.reshape main_arg0 main_v0 rfl Facts₀.shapeCasts_S16384_S128x128

/-- The launch valuation of device `d`, and the one after the reshape. -/
def Vl (d : Dev nD) : Valuation τ sig (Elt F) := fun b => m (d, b)
def Vr (d : Dev nD) : Valuation τ sig (Elt F) := (opReshape (F := F)).result (Vl m d)

/-- The reshaped indices. -/
def V0 (d : Dev nD) : Buf (Elt F) (vLoc d) := Vr m d v'

theorem V0_eq (d : Dev nD) :
    V0 m d = (shapeCast S128x128 (m (aLoc d) : S16384.Idx → BitVec 32) Facts₀.shapeCasts_S16384_S128x128 : S128x128.Idx → BitVec 32) := by
  rfl

/-! ## A subcore's pieces of the arrays -/

/-- The grid point of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- The same from plain numbers. -/
abbrev Lc (c : Fin 2) (i : Fin 16) : grid0.Coords := coordsV (Fin.cast bound_zero.symm c) (Fin.cast bound_one.symm i)

/-- The arrays and a subcore's two buffers, as the kernel names them. -/
abbrev tblW : Memref sig .scVector .hbm S1000x128 .f32 := Memref.whole main_arg1_scv
abbrev idxW : Memref sig .scVector .hbm S128x128 .i32 := Memref.whole main_v0_scv
abbrev outW : Memref sig .scVector .hbm S16384x128 .f32 := Memref.whole main_v1_scv
abbrev sI : Memref sig .scVector .vmem S4x128 .i32 := Memref.whole cc0_scratch0
abbrev sR : Memref sig .scVector .vmem S512x128 .f32 := Memref.whole cc0_scratch1

/-- The four index rows of the subcore at `L`, and quarter `r` of its rows of the result. -/
abbrev idxM (L : grid0.Coords) : Memref sig .scVector .hbm S4x128 .i32 :=
  idxW.slice (Rect.unit (s := S128x128) (k0_off1 L) S4x128.size (Facts₀.k0_off1_inb L)) (fun _ => rfl)
abbrev outM (L : grid0.Coords) (r : Fin 4) : Memref sig .scVector .hbm S128x128 .f32 :=
  outW.slice (Rect.unit (s := S16384x128) (k0_off2 L (BitVec.ofNat 32 (128 * r.val))) S128x128.size (Facts₀.k0_off2_inb L r)) (fun _ => rfl)

abbrev idxSet (L : grid0.Coords) : Finset S128x128.Idx := (idxM L).view.set
abbrev outSet (L : grid0.Coords) (r : Fin 4) : Finset S16384x128.Idx := (outM L r).view.set

theorem mem_idxSet (L : grid0.Coords) (x : S128x128.Idx) :
    x ∈ idxSet L ↔ 8 * (L 1).val + 4 * (L 0).val ≤ (x 0).val ∧ (x 0).val < 8 * (L 1).val + 4 * (L 0).val + 4 := by
  have e : idxSet L = (Rect.unit (s := S128x128) (k0_off1 L) S4x128.size (Facts₀.k0_off1_inb L)).set :=
    View.set_slice_whole (main_v0_scv : Ref sig .scVector) _
  rw [e, Rect.mem_set_unit, Gen.k0_off1_eq]
  constructor
  · intro h; exact h 0
  · intro h a
    match a with
    | ⟨0, _⟩ => exact h
    | ⟨1, _⟩ =>
      have h1 : (x 1).val < 128 := (x 1).isLt
      show 0 ≤ (x 1).val ∧ (x 1).val < 0 + 128
      omega

theorem mem_outSet (L : grid0.Coords) (r : Fin 4) (x : S16384x128.Idx) :
    x ∈ outSet L r ↔ 1024 * (L 1).val + 512 * (L 0).val + 128 * r.val ≤ (x 0).val
      ∧ (x 0).val < 1024 * (L 1).val + 512 * (L 0).val + 128 * r.val + 128 := by
  have e : outSet L r = (Rect.unit (s := S16384x128) (k0_off2 L (BitVec.ofNat 32 (128 * r.val))) S128x128.size (Facts₀.k0_off2_inb L r)).set :=
    View.set_slice_whole (main_v1_scv : Ref sig .scVector) _
  rw [e, Rect.mem_set_unit, Gen.k0_off2_eq]
  constructor
  · intro h; exact h 0
  · intro h a
    match a with
    | ⟨0, _⟩ => exact h
    | ⟨1, _⟩ =>
      have h1 : (x 1).val < 128 := (x 1).isLt
      show 0 ≤ (x 1).val ∧ (x 1).val < 0 + 128
      omega

theorem Lc_zero (c : Fin 2) (i : Fin 16) : ((Lc c i) 0).val = c.val := rfl
theorem Lc_one (c : Fin 2) (i : Fin 16) : ((Lc c i) 1).val = i.val := rfl

/-! ## The precondition's fact, and the result as one function -/

/-- What the proof asks of the launch memory: every index names a row of the table. -/
def PreOK : Prop := ∀ (d : Dev nD) (x : S16384.Idx), (m (aLoc d) x : BitVec 32).toNat < 1000

/-- Row-major position `(a, b)` of the reshaped indices is index `128 a + b`. -/
theorem V0_apply (d : Dev nD) (x : S128x128.Idx) :
    (V0 m d x : BitVec 32) = m (aLoc d) (ValueIdx.ix1 ⟨128 * (x 0).val + (x 1).val, by
      have h0 : (x 0).val < 128 := (x 0).isLt
      have h1 : (x 1).val < 128 := (x 1).isLt
      omega⟩) := by
  rw [V0_eq]
  refine shapeCast_apply (s := S16384) (t := S128x128) _ _ x _ ?_
  rw [Shape.rowMajor_val_one, Shape.rowMajor_val_two]
  show 128 * (x 0).val + (x 1).val = (x 0).val * 128 + (x 1).val
  omega

open Cert.Proof.Spec (rowOf)

/-- The result as one function of the table and the reshaped indices: row `i` of the result is the table's row named
    by index `i`, which sits at `(i / 128, i % 128)` of the reshaped array. -/
def GoutF (tbl : S1000x128.Idx → Elt F .f32) (ix : S128x128.Idx → BitVec 32) : S16384x128.Idx → Elt F .f32 :=
  fun x => tbl (ValueIdx.ix2
    (rowOf (ix (ValueIdx.ix2 (⟨(x 0).val / 128, by have h : (x 0).val < 16384 := (x 0).isLt; omega⟩ : Fin 128)
      (⟨(x 0).val % 128, Nat.mod_lt _ (by decide)⟩ : Fin 128))))
    (⟨(x 1).val, (x 1).isLt⟩ : Fin 128))

def Gout (d : Dev nD) : Buf (Elt F) (oLoc d) :=
  (GoutF (m (tLoc d) : S1000x128.Idx → Elt F .f32) (V0 m d : S128x128.Idx → BitVec 32) : S16384x128.Idx → Elt F .f32)

/-- Read through the reshape, the result is the lookup of the indices themselves. -/
theorem Gout_eq_lookup (d : Dev nD) :
    (Gout m d : S16384x128.Idx → Elt F .f32)
      = Cert.Proof.Spec.lookup (m (tLoc d) : S1000x128.Idx → Elt F .f32) (m (aLoc d) : S16384.Idx → BitVec 32) := by
  funext x
  unfold Gout GoutF Cert.Proof.Spec.lookup
  rw [V0_apply]
  have h0 : (x 0).val < 16384 := ValueIdx.idx2_lt0 x
  congr 3
  refine congrArg _ ?_
  funext a
  match a with
  | ⟨0, _⟩ => exact Fin.ext (show 128 * ((x 0).val / 128) + (x 0).val % 128 = (x 0).val by omega)

/-! ## What a subcore is handed, and what it hands back -/

/-- The share of the table the subcore at `L` reads through: one of 32 equal pieces. -/
abbrev tq (L : grid0.Coords) : PosShare TreeShare :=
  pieceOf (pieceOf fullShare 2 (by decide) (Fin.cast bound_zero (L 0))) 16 (by decide) (Fin.cast bound_one (L 1))

/-- A share of the table, the subcore's four rows of the reshaped indices, and its four quarters of the result at
    contents `f`. -/
def tileRes (d : Dev nD) (L : grid0.Coords) (f : Buf (Elt F) (oLoc d)) : sProp 𝕄 :=
  iprop((tLoc d ↦{tq L} m (tLoc d)) ∗ (vLoc d ↦[idxSet L]{fullShare} V0 m d)
    ∗ bigSep Finset.univ fun r : Fin 4 => oLoc d ↦[outSet L r]{fullShare} f)

instance tileRes_storable (d : Dev nD) (L : grid0.Coords) (f : Buf (Elt F) (oLoc d)) :
    BI.Storable (upEmb : UEmb _ 𝕄) (tileRes m d L f) := by
  unfold tileRes; infer_instance

/-- The one call hands SparseCore `c` its sixteen subcores' pieces, the result's at the launch contents, and takes
    them back with the result's at `Gout`; a subcore's proof consumes nothing of the launch's. -/
def P : (K (F := F)).Pay (nD := nD) (Val := Elt F) (Name := ℕ) (U := UU) where
  st := fun q d c => match q with
    | 0 => bigSep Finset.univ fun i : Fin 16 => tileRes m d (Lc (Fin.cast nCore_zero c) i) (m (oLoc d))
  dn := fun q d c => match q with
    | 0 => bigSep Finset.univ fun i : Fin 16 => tileRes m d (Lc (Fin.cast nCore_zero c) i) (Gout m d)
  go := fun q d c i => match q with
    | 0 => tileRes m d (Lc (Fin.cast nCore_zero c) (Fin.cast nSub_zero i)) (m (oLoc d))
  td := fun q d c i => match q with
    | 0 => tileRes m d (Lc (Fin.cast nCore_zero c) (Fin.cast nSub_zero i)) (Gout m d)
  x := fun _ _ => iprop(emp)

instance P_storable : (P (F := F) m).IsStorable where
  st q d c := match q with
    | 0 => (inferInstance : BI.Storable (upEmb : UEmb _ 𝕄) (bigSep Finset.univ fun i : Fin 16 => tileRes m d (Lc (Fin.cast nCore_zero c) i) (m (oLoc d))))
  dn q d c := match q with
    | 0 => (inferInstance : BI.Storable (upEmb : UEmb _ 𝕄) (bigSep Finset.univ fun i : Fin 16 => tileRes m d (Lc (Fin.cast nCore_zero c) i) (Gout m d)))
  go q d c i := match q with
    | 0 => (inferInstance : BI.Storable (upEmb : UEmb _ 𝕄) (tileRes m d (Lc (Fin.cast nCore_zero c) (Fin.cast nSub_zero i)) (m (oLoc d))))
  td q d c i := match q with
    | 0 => (inferInstance : BI.Storable (upEmb : UEmb _ 𝕄) (tileRes m d (Lc (Fin.cast nCore_zero c) (Fin.cast nSub_zero i)) (Gout m d)))

/-! ## The whole arrays split into the subcores' pieces -/

omit m in
theorem tbl_split (d : Dev nD) (f : Buf (Elt F) (tLoc d)) :
    (tLoc d ↦{fullShare} f : sProp 𝕄) = bigSep Finset.univ fun c : Fin 2 => bigSep Finset.univ fun i : Fin 16 => tLoc d ↦{tq (Lc c i)} f := by
  rw [pointsTo_piecesOf Finset.univ f (o := 2) (by decide) fullShare]
  exact bigSep_congr fun c _ => pointsTo_piecesOf Finset.univ f (o := 16) (by decide) _

omit m in
theorem idx_cover (x : S128x128.Idx) : ∃ (c : Fin 2) (i : Fin 16), x ∈ idxSet (Lc c i) := by
  have h0 : (x 0).val < 128 := ValueIdx.idx2_lt0 x
  refine ⟨⟨((x 0).val / 4) % 2, Nat.mod_lt _ (by decide)⟩, ⟨(x 0).val / 8, by omega⟩, ?_⟩
  rw [mem_idxSet, Lc_zero, Lc_one]
  show 8 * ((x 0).val / 8) + 4 * (((x 0).val / 4) % 2) ≤ (x 0).val ∧ (x 0).val < 8 * ((x 0).val / 8) + 4 * (((x 0).val / 4) % 2) + 4
  omega

omit m in
theorem idx_unique (c c' : Fin 2) (i i' : Fin 16) (x : S128x128.Idx) (h : x ∈ idxSet (Lc c i)) (h' : x ∈ idxSet (Lc c' i')) :
    c = c' ∧ i = i' := by
  rw [mem_idxSet, Lc_zero, Lc_one] at h h'
  have := c.isLt; have := c'.isLt
  exact ⟨Fin.ext (by omega), Fin.ext (by omega)⟩

omit m in
theorem idx_split (d : Dev nD) (f : Buf (Elt F) (vLoc d)) :
    (vLoc d ↦{fullShare} f : sProp 𝕄) = bigSep Finset.univ fun c : Fin 2 => bigSep Finset.univ fun i : Fin 16 => vLoc d ↦[idxSet (Lc c i)]{fullShare} f :=
  LibNestedSplit.pointsTo_nested_two (ℓ := vLoc d) (fun (c : Fin 2) (i : Fin 16) => idxSet (Lc c i))
    (fun c i c' i' h => Finset.disjoint_left.mpr fun x hx hx' => by
      obtain ⟨h1, h2⟩ := idx_unique c c' i i' x hx hx'
      exact h.elim (fun k => k h1) (fun k => k h2))
    (fun x => idx_cover x)

/-! The result's rows: quarters within a subcore, subcores within a SparseCore, the two SparseCores. -/

omit m in
theorem out_cover (x : S16384x128.Idx) : ∃ (c : Fin 2) (i : Fin 16) (r : Fin 4), x ∈ outSet (Lc c i) r := by
  have h0 : (x 0).val < 16384 := ValueIdx.idx2_lt0 x
  refine ⟨⟨((x 0).val / 512) % 2, Nat.mod_lt _ (by decide)⟩, ⟨(x 0).val / 1024, by omega⟩, ⟨((x 0).val / 128) % 4, Nat.mod_lt _ (by decide)⟩, ?_⟩
  rw [mem_outSet, Lc_zero, Lc_one]
  show 1024 * ((x 0).val / 1024) + 512 * (((x 0).val / 512) % 2) + 128 * (((x 0).val / 128) % 4) ≤ (x 0).val
    ∧ (x 0).val < 1024 * ((x 0).val / 1024) + 512 * (((x 0).val / 512) % 2) + 128 * (((x 0).val / 128) % 4) + 128
  omega

omit m in
theorem out_unique (c c' : Fin 2) (i i' : Fin 16) (r r' : Fin 4) (x : S16384x128.Idx)
    (h : x ∈ outSet (Lc c i) r) (h' : x ∈ outSet (Lc c' i') r') : c = c' ∧ i = i' ∧ r = r' := by
  rw [mem_outSet, Lc_zero, Lc_one] at h h'
  have := c.isLt; have := c'.isLt; have := r.isLt; have := r'.isLt
  exact ⟨Fin.ext (by omega), Fin.ext (by omega), Fin.ext (by omega)⟩

omit m in
theorem out_split (d : Dev nD) (f : Buf (Elt F) (oLoc d)) :
    (oLoc d ↦{fullShare} f : sProp 𝕄) = bigSep Finset.univ fun c : Fin 2 => bigSep Finset.univ fun i : Fin 16 =>
      bigSep Finset.univ fun r : Fin 4 => oLoc d ↦[outSet (Lc c i) r]{fullShare} f :=
  LibNestedSplit.pointsTo_nested_three (ℓ := oLoc d) (fun (c : Fin 2) (i : Fin 16) (r : Fin 4) => outSet (Lc c i) r)
    (fun c i r c' i' r' h => Finset.disjoint_left.mpr fun x hx hx' => by
      obtain ⟨h1, h2, h3⟩ := out_unique c c' i i' r r' x hx hx'
      exact h.elim (fun k => k h1) (fun h' => h'.elim (fun k => k h2) (fun k => k h3)))
    (fun x => out_cover x)

/-- The three arrays whole are the 32 subcores' pieces. -/
theorem arrays_split (d : Dev nD) (f : Buf (Elt F) (oLoc d)) :
    (iprop((tLoc d ↦{fullShare} m (tLoc d)) ∗ (vLoc d ↦{fullShare} V0 m d) ∗ (oLoc d ↦{fullShare} f)) : sProp 𝕄)
      = bigSep Finset.univ fun c : Fin 2 => bigSep Finset.univ fun i : Fin 16 => tileRes m d (Lc c i) f := by
  rw [tbl_split d (m (tLoc d)), idx_split d (V0 m d), out_split d f]
  unfold tileRes
  simp only [bigSep_sep']

end Cert.Proof.KB

end
-- ==== Proof.KBValue.lean ====
/-
  What a subcore's copies leave, read at one element.

  The subcore at grid point `L = (c, s)` is worker `w = 2 s + c`.  Its row buffer `[512, 128]` ends holding, at
  row `r`, the table row named by word `(4 w + r / 128, r % 128)` of the reshaped indices — the function `Rbuf`.
  Each gather's payload is `Rbuf` on its quarter of the buffer (the gather's row `k` of quarter `j` reads the table
  at the word the index buffer's row `j` holds at `k`, and the index buffer holds rows `4 w …` of the reshaped
  indices); the buffer after the four gathers therefore reads as `Rbuf` everywhere; and row `r` of quarter `j` of the
  subcore's rows of the result is row `512 w + 128 j + r` of the result, where `Gout` is `Rbuf` at `128 j + r`.
-/
import proofs.«216249_g22557168238913_cont_8to1_658_3_alg».proof.Proof.KBSetup
import proofs.«216249_g22557168238913_cont_8to1_658_3_alg».proof.Proof.LibWholeView
import Idealize.ShloMosaic.Lib.Writes
import Idealize.ShloMosaic.Lib.SparseCore.Stream

noncomputable section

namespace Cert.Proof.KB

open Cert.Kernel

open Idealize.ShloMosaic
open Idealize.ShloMosaic.SparseCore (S V T)
open Idealize.ShloMosaic.ValueIdx
open Cert.Proof.Spec (rowOf)

variable {F : FTy → Type}

variable (m : (ℓ : Loc nD τ sig) → Buf (Elt F) ℓ) (d : Dev nD) (L : grid0.Coords)

omit m d in
theorem L0_lt : (L 0).val < 2 := (L 0).isLt
omit m d in
theorem L1_lt : (L 1).val < 16 := (L 1).isLt

/-- What the subcore's row buffer ends holding. -/
def Rbuf : S512x128.Idx → Elt F .f32 := fun y =>
  (m (tLoc d) : S1000x128.Idx → Elt F .f32)
    (ix2 (rowOf ((V0 m d : S128x128.Idx → BitVec 32)
      (ix2 (⟨8 * (L 1).val + 4 * (L 0).val + (y 0).val / 128, by
          have := L0_lt L; have := L1_lt L; have h : (y 0).val < 512 := (y 0).isLt; omega⟩ : Fin 128)
        (⟨(y 0).val % 128, Nat.mod_lt _ (by decide)⟩ : Fin 128))))
      (⟨(y 1).val, (y 1).isLt⟩ : Fin 128))

/-! ## The views' placements -/

omit m d in
/-- Row `z 0` of the subcore's index rows is row `4 w + z 0` of the reshaped indices. -/
theorem idxM_emb (z : S4x128.Idx) :
    ((idxM L).view.emb z : S128x128.Idx)
      = ix2 (⟨8 * (L 1).val + 4 * (L 0).val + (z 0).val, by
          have := L0_lt L; have := L1_lt L; have h : (z 0).val < 4 := (z 0).isLt; omega⟩ : Fin 128)
        (⟨(z 1).val, (z 1).isLt⟩ : Fin 128) := by
  funext a
  match a with
  | ⟨0, _⟩ =>
    refine Fin.ext ?_
    show (k0_off1 L) 0 + 1 * (z 0).val = 8 * (L 1).val + 4 * (L 0).val + (z 0).val
    rw [Gen.k0_off1_eq]; show 8 * (L 1).val + 4 * (L 0).val + 1 * (z 0).val = _; omega
  | ⟨1, _⟩ =>
    refine Fin.ext ?_
    show (k0_off1 L) 1 + 1 * (z 1).val = (z 1).val
    rw [Gen.k0_off1_eq]; show 0 + 1 * (z 1).val = _; omega

/-! ## The index buffer's rows -/

omit m d L in
theorem inbI (j : Fin 4) : ∀ a, (![j.val, 0] : Fin 2 → Nat) a + S1x128.size a ≤ S4x128.size a := by
  intro a
  have := j.isLt
  match a with
  | ⟨0, _⟩ => show j.val + 1 ≤ 4; omega
  | ⟨1, _⟩ => show 0 + 128 ≤ 128; omega

/-- Row `j` of the index buffer, as a list of 128 words: what gather `j` reads its offsets from. -/
abbrev rowV (j : Fin 4) : Memref sig .scVector .vmem S128 .i32 :=
  (sI.slice (Rect.unit (s := S4x128) ![j.val, 0] S1x128.size (inbI j)) (fun _ => rfl)).squeeze S128 Facts₀.squeezes_S1x128_S128

omit m d L in
/-- Word `z` of that list is word `(j, z)` of the buffer. -/
theorem rowV_emb (j : Fin 4) (z : S128.Idx) :
    ((rowV j).view.emb z : S4x128.Idx) = ix2 (⟨j.val, j.isLt⟩ : Fin 4) (⟨(z 0).val, (z 0).isLt⟩ : Fin 128) := by
  have e : Shape.reshapeEquiv (Facts₀.squeezes_S1x128_S128 (self := Gen.facts₀)).numel_eq z
      = (ix2 (⟨0, Nat.one_pos⟩ : Fin 1) (⟨(z 0).val, (z 0).isLt⟩ : Fin 128) : S1x128.Idx) :=
    Shape.reshapeEquiv_eq_of_rowMajor _ (by
      rw [Shape.rowMajor_val_two, Shape.rowMajor_val_one]
      show 0 * 128 + (z 0).val = (z 0).val
      omega)
  show (Rect.unit (s := S4x128) ![j.val, 0] S1x128.size (inbI j)).emb (Shape.reshapeEquiv _ z) = _
  rw [e]
  funext a
  match a with
  | ⟨0, _⟩ => exact Fin.ext (show j.val + 1 * 0 = j.val by omega)
  | ⟨1, _⟩ => exact Fin.ext (show 0 + 1 * (z 0).val = (z 0).val by omega)

/-- After the index copy, word `z` of row `j` of the index buffer is word `(4 w + j, z)` of the reshaped indices. -/
theorem rowV_read (j : Fin 4) (fi : Buf (Elt F) ((V d ((L 0).castLE Facts₀.hcore0) ((L 1).castLE Facts₀.hsub0)).loc cc0_scratch0)) (z : S128.Idx) :
    View.read (Elt F) (rowV j).view (View.write (Elt F) sI.view fi (ReadAs.same.apply (View.read (Elt F) (idxM L).view (V0 m d))) Finset.univ) z
      = (V0 m d : S128x128.Idx → BitVec 32) (ix2 (⟨8 * (L 1).val + 4 * (L 0).val + j.val, by
          have := L0_lt L; have := L1_lt L; have := j.isLt; omega⟩ : Fin 128) (⟨(z 0).val, (z 0).isLt⟩ : Fin 128)) := by
  rw [View.write_whole_univ]
  rw [(View.read_apply _ _).trans (cast_eq _ _)]
  show View.read (Elt F) (idxM L).view (V0 m d) ((rowV j).view.emb z) = _
  rw [rowV_emb, (View.read_apply _ _).trans (cast_eq _ _), idxM_emb]

/-! ## A gather's payload -/

omit m d L in
/-- The rows a list of 128 words names: entry `k` is word `k`. -/
theorem rows_val (idx : S128.Idx → Elt F .i32) {z : ℕ} (hn : S128.numel = 128) (h : ∀ x, (idx x : BitVec 32).toNat < z) (k : Fin 128) :
    (SparseCore.rows (F := F) idx hn h k).val = (idx (ix1 k) : BitVec 32).toNat := by
  show (idx (S128.rowMajor.symm (k.cast hn.symm)) : BitVec 32).toNat = _
  congr 2
  refine (Equiv.symm_apply_eq _).mpr (Fin.ext ?_)
  rw [Shape.rowMajor_val_one]
  rfl

/-- The table, as the gathers name it, reads as the table. -/
abbrev tblS : Memref sig .scVector .hbm S1000x128 .f32 :=
  tblW.slice (Rect.unit (s := S1000x128) ![0, 0] S1000x128.size Facts₀.inb_S1000x128_S1000x128_0_0) (fun _ => rfl)

omit L in
theorem tblS_read (z : S1000x128.Idx) :
    View.read (Elt F) tblS.view (m (tLoc d)) z = (m (tLoc d) : S1000x128.Idx → Elt F .f32) z := by
  rw [(View.read_apply _ _).trans (cast_eq _ _)]
  refine congrArg (m (tLoc d) : S1000x128.Idx → Elt F .f32) ?_
  funext a
  match a with
  | ⟨0, _⟩ => exact Fin.ext (show 0 + 1 * (z 0).val = (z 0).val by omega)
  | ⟨1, _⟩ => exact Fin.ext (show 0 + 1 * (z 1).val = (z 1).val by omega)

/-- Gather `j`'s payload at `(r, c)` is `Rbuf` at `(128 j + r, c)`. -/
theorem gather_val (j : Fin 4) (fi : Buf (Elt F) ((V d ((L 0).castLE Facts₀.hcore0) ((L 1).castLE Facts₀.hsub0)).loc cc0_scratch0))
    (hn : S128.numel = 128)
    (hin : ∀ x, (View.read (Elt F) (rowV j).view
      (View.write (Elt F) sI.view fi (ReadAs.same.apply (View.read (Elt F) (idxM L).view (V0 m d))) Finset.univ) x : BitVec 32).toNat < 1000)
    (y : S128x128.Idx) :
    SparseCore.gatherPayload (F := F) (Facts₀.gathers_S1000x128_S128x128 (self := Gen.facts₀)) (View.read (Elt F) tblS.view (m (tLoc d)))
        (SparseCore.rows (View.read (Elt F) (rowV j).view
          (View.write (Elt F) sI.view fi (ReadAs.same.apply (View.read (Elt F) (idxM L).view (V0 m d))) Finset.univ)) hn hin) y
      = Rbuf m d L (ix2 (⟨128 * j.val + (y 0).val, by have := j.isLt; have h : (y 0).val < 128 := (y 0).isLt; omega⟩ : Fin 512)
          (⟨(y 1).val, (y 1).isLt⟩ : Fin 128)) := by
  have hy0 : (y 0).val < 128 := (y 0).isLt
  have hj := j.isLt
  show View.read (Elt F) tblS.view (m (tLoc d)) _ = _
  rw [tblS_read]
  unfold Rbuf
  refine congrArg (m (tLoc d) : S1000x128.Idx → Elt F .f32) ?_
  funext a
  match a with
  | ⟨0, _⟩ =>
    refine Fin.ext ?_
    have h0 := congrArg Fin.val (Shape.Gathers.idx_axis (Facts₀.gathers_S1000x128_S128x128 (self := Gen.facts₀))
      (SparseCore.rows (View.read (Elt F) (rowV j).view
          (View.write (Elt F) sI.view fi (ReadAs.same.apply (View.read (Elt F) (idxM L).view (V0 m d))) Finset.univ)) hn hin) y)
    refine h0.trans ((rows_val (F := F) _ hn hin (y 0)).trans ?_)
    rw [rowV_read]
    have hlt := hin (ix1 (y 0))
    rw [rowV_read] at hlt
    have key : ∀ (I I' : S128x128.Idx), I' = I → ((V0 m d : S128x128.Idx → BitVec 32) I).toNat < 1000 →
        ((V0 m d : S128x128.Idx → BitVec 32) I).toNat = (rowOf ((V0 m d : S128x128.Idx → BitVec 32) I')).val := by
      intro I I' h hl; subst h; exact (Cert.Proof.Spec.rowOf_val_of_lt hl).symm
    refine key _ _ ?_ hlt
    funext b
    match b with
    | ⟨0, _⟩ => exact Fin.ext (show 8 * (L 1).val + 4 * (L 0).val + (128 * j.val + (y 0).val) / 128 = 8 * (L 1).val + 4 * (L 0).val + j.val by omega)
    | ⟨1, _⟩ => exact Fin.ext (show (128 * j.val + (y 0).val) % 128 = (y 0).val by omega)
  | ⟨1, _⟩ =>
    refine Fin.ext ?_
    exact Shape.Gathers.idx_of_ne (Facts₀.gathers_S1000x128_S128x128 (self := Gen.facts₀)) _ y ⟨1, by decide⟩ (by decide)

/-! ## The row buffer after the four gathers, and the result's quarters -/

omit m d L in
theorem inbR (j : Fin 4) : ∀ a, (![128 * j.val, 0] : Fin 2 → Nat) a + S128x128.size a ≤ S512x128.size a := by
  intro a
  have := j.isLt
  match a with
  | ⟨0, _⟩ => show 128 * j.val + 128 ≤ 512; omega
  | ⟨1, _⟩ => show 0 + 128 ≤ 128; omega

/-- Quarter `j` of the row buffer. -/
abbrev rectR (j : Fin 4) : Rect S512x128 := Rect.unit (s := S512x128) ![128 * j.val, 0] S128x128.size (inbR j)

omit m d L in
theorem rectR_emb (j : Fin 4) (y : S128x128.Idx) :
    ((rectR j).emb y : S512x128.Idx)
      = ix2 (⟨128 * j.val + (y 0).val, by have := j.isLt; have h : (y 0).val < 128 := (y 0).isLt; omega⟩ : Fin 512)
          (⟨(y 1).val, (y 1).isLt⟩ : Fin 128) := by
  funext a
  match a with
  | ⟨0, _⟩ => exact Fin.ext (show 128 * j.val + 1 * (y 0).val = 128 * j.val + (y 0).val by omega)
  | ⟨1, _⟩ => exact Fin.ext (show 0 + 1 * (y 1).val = (y 1).val by omega)

omit m d L in
theorem emb_mem {s : Shape} (r : Rect s) (y : r.shape.Idx) : r.emb y ∈ r.set := by
  rw [← Rect.map_emb_univ]; exact Finset.mem_map_of_mem _ (Finset.mem_univ _)

/-- After the four gathers, each of whose payloads is `Rbuf` on its quarter, the row buffer reads as `Rbuf` on every quarter. -/
theorem rowbuf_read (fr : Buf (Elt F) ((V d ((L 0).castLE Facts₀.hcore0) ((L 1).castLE Facts₀.hsub0)).loc cc0_scratch1))
    (g0 g1 g2 g3 : S128x128.Idx → Elt F .f32)
    (h0 : ∀ y, g0 y = Rbuf m d L ((rectR 0).emb y)) (h1 : ∀ y, g1 y = Rbuf m d L ((rectR 1).emb y))
    (h2 : ∀ y, g2 y = Rbuf m d L ((rectR 2).emb y)) (h3 : ∀ y, g3 y = Rbuf m d L ((rectR 3).emb y))
    (j : Fin 4) (y : S128x128.Idx) :
    View.read (Elt F) sR.view (sR.view.writes (Elt F) fr [⟨rectR 3, g3⟩, ⟨rectR 2, g2⟩, ⟨rectR 1, g1⟩, ⟨rectR 0, g0⟩]) ((rectR j).emb y)
      = Rbuf m d L ((rectR j).emb y) := by
  refine View.read_writes_apply_of_pieces sR.view fr (Rbuf m d L) _ ?_ _ ?_
  · intro p hp x
    simp only [List.mem_cons, List.not_mem_nil, or_false] at hp
    rcases hp with rfl | rfl | rfl | rfl
    · exact h3 x
    · exact h2 x
    · exact h1 x
    · exact h0 x
  · have hex : ∃ p ∈ ([⟨rectR 3, g3⟩, ⟨rectR 2, g2⟩, ⟨rectR 1, g1⟩, ⟨rectR 0, g0⟩] : List (View.Piece (Elt F) S512x128 .f32)), p.1 = rectR j := by
      match j with
      | ⟨0, _⟩ => exact ⟨⟨rectR 0, g0⟩, by simp, rfl⟩
      | ⟨1, _⟩ => exact ⟨⟨rectR 1, g1⟩, by simp, rfl⟩
      | ⟨2, _⟩ => exact ⟨⟨rectR 2, g2⟩, by simp, rfl⟩
      | ⟨3, _⟩ => exact ⟨⟨rectR 3, g3⟩, by simp, rfl⟩
    obtain ⟨p, hp, hp1⟩ := hex
    refine ⟨p, hp, ?_⟩
    rw [hp1]
    exact emb_mem (rectR j) y

omit m in
/-- Reading quarter `j` of the row buffer is reading the buffer at the quarter's rows. -/
theorem slice_read (j : Fin 4) (C : Buf (Elt F) ((V d ((L 0).castLE Facts₀.hcore0) ((L 1).castLE Facts₀.hsub0)).loc cc0_scratch1)) (y : S128x128.Idx) :
    View.read (Elt F) (sR.slice (rectR j) (fun _ => rfl)).view C y = View.read (Elt F) sR.view C ((rectR j).emb y) := by
  rw [View.read_apply, View.read_apply]; rfl

/-- Row `r` of quarter `j` of the subcore's rows of the result: there `Gout` is `Rbuf` at row `128 j + r`. -/
theorem out_read (j : Fin 4) (y : S128x128.Idx) :
    View.read (Elt F) (outM L j).view (Gout m d) y = Rbuf m d L ((rectR j).emb y) := by
  have hj := j.isLt
  have hy0 : (y 0).val < 128 := (y 0).isLt
  have h0 := L0_lt L
  have h1 := L1_lt L
  rw [(View.read_apply _ _).trans (cast_eq _ _), rectR_emb]
  have e : ((outM L j).view.emb y : S16384x128.Idx)
      = ix2 (⟨1024 * (L 1).val + 512 * (L 0).val + 128 * j.val + (y 0).val, by omega⟩ : Fin 16384) (⟨(y 1).val, (y 1).isLt⟩ : Fin 128) := by
    funext a
    match a with
    | ⟨0, _⟩ =>
      refine Fin.ext ?_
      show (k0_off2 L (BitVec.ofNat 32 (128 * j.val))) 0 + 1 * (y 0).val = 1024 * (L 1).val + 512 * (L 0).val + 128 * j.val + (y 0).val
      rw [Gen.k0_off2_eq]
      show 1024 * (L 1).val + 512 * (L 0).val + 128 * j.val + 1 * (y 0).val = 1024 * (L 1).val + 512 * (L 0).val + 128 * j.val + (y 0).val
      omega
    | ⟨1, _⟩ =>
      refine Fin.ext ?_
      show (k0_off2 L (BitVec.ofNat 32 (128 * j.val))) 1 + 1 * (y 1).val = (y 1).val
      rw [Gen.k0_off2_eq]
      show 0 + 1 * (y 1).val = (y 1).val
      omega
  rw [e]
  unfold Gout GoutF Rbuf
  congr 4
  funext b
  match b with
  | ⟨0, _⟩ => exact Fin.ext (show (1024 * (L 1).val + 512 * (L 0).val + 128 * j.val + (y 0).val) / 128
      = 8 * (L 1).val + 4 * (L 0).val + (128 * j.val + (y 0).val) / 128 by omega)
  | ⟨1, _⟩ => exact Fin.ext (show (1024 * (L 1).val + 512 * (L 0).val + 128 * j.val + (y 0).val) % 128
      = (128 * j.val + (y 0).val) % 128 by omega)

/-- Quarter `j` of the subcore's rows of the result, after the copy of quarter `j` of the row buffer has landed in it,
    holds `Gout`. -/
theorem piece_congr (j : Fin 4) (fo : Buf (Elt F) (oLoc d))
    (fr : Buf (Elt F) ((V d ((L 0).castLE Facts₀.hcore0) ((L 1).castLE Facts₀.hsub0)).loc cc0_scratch1))
    (g0 g1 g2 g3 : S128x128.Idx → Elt F .f32)
    (h0 : ∀ y, g0 y = Rbuf m d L ((rectR 0).emb y)) (h1 : ∀ y, g1 y = Rbuf m d L ((rectR 1).emb y))
    (h2 : ∀ y, g2 y = Rbuf m d L ((rectR 2).emb y)) (h3 : ∀ y, g3 y = Rbuf m d L ((rectR 3).emb y)) :
    ∀ i ∈ (outM L j).view.set,
      (outM L j).view.writes (Elt F) fo [⟨Rect.whole S128x128, ReadAs.same.apply (View.read (Elt F) (sR.slice (rectR j) (fun _ => rfl)).view
        (sR.view.writes (Elt F) fr [⟨rectR 3, g3⟩, ⟨rectR 2, g2⟩, ⟨rectR 1, g1⟩, ⟨rectR 0, g0⟩]))⟩] i = Gout m d i := by
  refine Cert.Proof.LibWholeView.eq_on_set_of_read_eq (outM L j).view _ _ ?_
  rw [Cert.Proof.LibWholeView.read_writes_whole_cons]
  funext y
  show View.read (Elt F) (sR.slice (rectR j) (fun _ => rfl)).view _ y = _
  rw [slice_read d L j, rowbuf_read m d L fr g0 g1 g2 g3 h0 h1 h2 h3, out_read]

end Cert.Proof.KB

end
-- ==== Proof.KBBody.lean ====
/-
  One vector subcore's task.

  The subcore at grid point `L` holds a share of the table, its four rows of the reshaped indices and its four
  quarters of the result.  It copies the index rows into its index buffer and waits; starts four gathers, gather `j`
  reading index row `j` and landing in quarter `j` of its row buffer, each on a semaphore of its own; then, for each
  `j` in turn, waits for gather `j` and starts the copy of quarter `j` of the row buffer out to quarter `j` of its
  rows of the result — the four copies on ONE semaphore —; and last waits four times on that semaphore.  No copy's
  source or destination is touched between the first copy's start and the last wait, so after the four waits every
  copy has landed: quarter `j` of the subcore's rows of the result holds the table rows that index row `j` names.
-/
import proofs.«216249_g22557168238913_cont_8to1_658_3_alg».proof.Proof.KBSetup
import proofs.«216249_g22557168238913_cont_8to1_658_3_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE Facts₀.hcore0
abbrev jV (L : grid0.Coords) : Fin τ.nSub := (L 1).castLE Facts₀.hsub0

/-- The subcore's six DMA semaphores: the index copy's, the four gathers', the copies-out's. -/
abbrev isem : DmaSem sig := cc0_scoped0.sem
abbrev gsem0 : DmaSem sig := ((cc0_scratch2.slice (Rect.unit (s := S4) ![0] S1.size Facts₀.inb_S4_S1_0)).squeeze S_ Facts₀.squeezes_S1_S_).sem
abbrev gsem1 : DmaSem sig := ((cc0_scratch2.slice (Rect.unit (s := S4) ![1] S1.size Facts₀.inb_S4_S1_1)).squeeze S_ Facts₀.squeezes_S1_S_).sem
abbrev gsem2 : DmaSem sig := ((cc0_scratch2.slice (Rect.unit (s := S4) ![2] S1.size Facts₀.inb_S4_S1_2)).squeeze S_ Facts₀.squeezes_S1_S_).sem
abbrev gsem3 : DmaSem sig := ((cc0_scratch2.slice (Rect.unit (s := S4) ![3] S1.size Facts₀.inb_S4_S1_3)).squeeze S_ Facts₀.squeezes_S1_S_).sem
abbrev osem : DmaSem sig := cc0_scratch3.sem

abbrev cell (s : DmaSem sig) : GSem nD τ sig := (V d (cV L) (jV L), SemLoc.dma s)

omit m in
theorem cell_ne {s s' : DmaSem sig} (h : s ≠ s') : cell d L s ≠ cell d L s' :=
  fun e => h (SemLoc.dma.inj (Prod.mk.inj e).2)

omit m in
theorem cell_mem (s : DmaSem sig) (hs : (SemLoc.dma s : SemLoc sig).isScoped .scVector = true) : cell d L s ∈ ownCells (V d (cV L) (jV L)) :=
  (mem_ownCells (g := cell d L s)).mpr ⟨rfl, hs⟩

/-- The subcore's other scoped cells. -/
abbrev restCells : Finset (GSem nD τ sig) :=
  ((((((ownCells (V d (cV L) (jV L))).erase (cell d L isem)).erase (cell d L gsem0)).erase (cell d L gsem1)).erase (cell d L gsem2)).erase (cell d L gsem3)).erase (cell d L osem)

omit m in
theorem ownSems0_V :
    (ownSems0 (V d (cV L) (jV L)) : sProp 𝕄)
      = iprop(semVal (cell d L isem) 0 ∗ semVal (cell d L gsem0) 0 ∗ semVal (cell d L gsem1) 0 ∗ semVal (cell d L gsem2) 0
          ∗ semVal (cell d L gsem3) 0 ∗ semVal (cell d L osem) 0 ∗ bigSep (restCells d L) fun g => semVal g 0) := by
  unfold SparseCore.Cfg.ownSems0
  have m0 : cell d L isem ∈ ownCells (V d (cV L) (jV L)) := cell_mem d L _ (by decide)
  have m1 : cell d L gsem0 ∈ (ownCells (V d (cV L) (jV L))).erase (cell d L isem) :=
    Finset.mem_erase.mpr ⟨cell_ne d L (by decide), cell_mem d L _ (by decide)⟩
  have m2 : cell d L gsem1 ∈ ((ownCells (V d (cV L) (jV L))).erase (cell d L isem)).erase (cell d L gsem0) :=
    Finset.mem_erase.mpr ⟨cell_ne d L (by decide), Finset.mem_erase.mpr ⟨cell_ne d L (by decide), cell_mem d L _ (by decide)⟩⟩
  have m3 : cell d L gsem2 ∈ (((ownCells (V d (cV L) (jV L))).erase (cell d L isem)).erase (cell d L gsem0)).erase (cell d L gsem1) :=
    Finset.mem_erase.mpr ⟨cell_ne d L (by decide), Finset.mem_erase.mpr ⟨cell_ne d L (by decide),
      Finset.mem_erase.mpr ⟨cell_ne d L (by decide), cell_mem d L _ (by decide)⟩⟩⟩
  have m4 : cell d L gsem3 ∈ ((((ownCells (V d (cV L) (jV L))).erase (cell d L isem)).erase (cell d L gsem0)).erase (cell d L gsem1)).erase (cell d L gsem2) :=
    Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L _ (by decide)⟩⟩⟩⟩
  have m5 : cell d L osem ∈ (((((ownCells (V d (cV L) (jV L))).erase (cell d L isem)).erase (cell d L gsem0)).erase (cell d L gsem1)).erase (cell d L gsem2)).erase (cell d L gsem3) :=
    Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L _ (by decide)⟩⟩⟩⟩⟩
  rw [SparseCore.bigSep_erase' m0, SparseCore.bigSep_erase' m1, SparseCore.bigSep_erase' m2, SparseCore.bigSep_erase' m3,
    SparseCore.bigSep_erase' m4, SparseCore.bigSep_erase' m5]

/-- The subcore's other buffers. -/
abbrev restRefs : Finset (DevRef τ sig) :=
  ((ownRefs (τ := τ) (.scVector (cV L) (jV L))).erase ((Proc.scVector (cV L) (jV L)).devRef cc0_scratch0)).erase
    ((Proc.scVector (cV L) (jV L)).devRef cc0_scratch1)

omit m in
/-- The index buffer and the row buffer are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- The quarters of the subcore's rows of the result, as the kernel spells them. -/
abbrev outP0 : Memref sig .scVector .hbm S128x128 .f32 :=
  outW.slice (Rect.unit (s := S16384x128) (k0_off2 L 0#32) S128x128.size (Facts₀.k0_off2_inb L 0)) (fun _ => rfl)
abbrev outP1 : Memref sig .scVector .hbm S128x128 .f32 :=
  outW.slice (Rect.unit (s := S16384x128) (k0_off2 L 128#32) S128x128.size (Facts₀.k0_off2_inb L 1)) (fun _ => rfl)
abbrev outP2 : Memref sig .scVector .hbm S128x128 .f32 :=
  outW.slice (Rect.unit (s := S16384x128) (k0_off2 L 256#32) S128x128.size (Facts₀.k0_off2_inb L 2)) (fun _ => rfl)
abbrev outP3 : Memref sig .scVector .hbm S128x128 .f32 :=
  outW.slice (Rect.unit (s := S16384x128) (k0_off2 L 384#32) S128x128.size (Facts₀.k0_off2_inb L 3)) (fun _ => rfl)

omit m [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

omit m [FloatOps F] in
theorem pts_tbl (q : PosShare TreeShare) (f : Buf (Elt F) (tLoc d)) :
    (tblW.view.loc (V d (cV L) (jV L)) ↦{q} f : sProp 𝕄) = tLoc d ↦{q} f := rfl
omit m [FloatOps F] in
theorem pts_idx (f : Buf (Elt F) (vLoc d)) :
    ((idxM L).view.loc (V d (cV L) (jV L)) ↦[(idxM L).view.set]{fullShare} f : sProp 𝕄) = vLoc d ↦[idxSet L]{fullShare} f := rfl
omit m [FloatOps F] in
theorem pts_out0 (f : Buf (Elt F) (oLoc d)) :
    ((outP0 L).view.loc (V d (cV L) (jV L)) ↦[(outP0 L).view.set]{fullShare} f : sProp 𝕄) = oLoc d ↦[outSet L 0]{fullShare} f := rfl
omit m [FloatOps F] in
theorem pts_out1 (f : Buf (Elt F) (oLoc d)) :
    ((outP1 L).view.loc (V d (cV L) (jV L)) ↦[(outP1 L).view.set]{fullShare} f : sProp 𝕄) = oLoc d ↦[outSet L 1]{fullShare} f := rfl
omit m [FloatOps F] in
theorem pts_out2 (f : Buf (Elt F) (oLoc d)) :
    ((outP2 L).view.loc (V d (cV L) (jV L)) ↦[(outP2 L).view.set]{fullShare} f : sProp 𝕄) = oLoc d ↦[outSet L 2]{fullShare} f := rfl
omit m [FloatOps F] in
theorem pts_out3 (f : Buf (Elt F) (oLoc d)) :
    ((outP3 L).view.loc (V d (cV L) (jV L)) ↦[(outP3 L).view.set]{fullShare} f : sProp 𝕄) = oLoc d ↦[outSet L 3]{fullShare} f := rfl
omit m [FloatOps F] in
theorem pts_sI (f : Buf (Elt F) ((V d (cV L) (jV L)).loc cc0_scratch0)) :
    (sI.view.loc (V d (cV L) (jV L)) ↦{fullShare} f : sProp 𝕄) = (V d (cV L) (jV L)).loc cc0_scratch0 ↦{fullShare} f := rfl
omit m [FloatOps F] in
theorem pts_sR (f : Buf (Elt F) ((V d (cV L) (jV L)).loc cc0_scratch1)) :
    (sR.view.loc (V d (cV L) (jV L)) ↦{fullShare} f : sProp 𝕄) = (V d (cV L) (jV L)).loc cc0_scratch1 ↦{fullShare} f := rfl

/-- Every word of the reshaped indices names a row of the table. -/
theorem V0_lt (hpre : PreOK m) (d : Dev nD) (y : S128x128.Idx) : (V0 m d y : BitVec 32).toNat < 1000 := by
  rw [V0_apply]; exact hpre d _

/-- The gathers' offsets are in range: whatever the index buffer held before, once the index copy has landed in it,
    every word of any of its rows is a word of the reshaped indices, so below 1000 under the precondition. -/
theorem inb_of_pre (hpre : PreOK m) (g0 : Buf (Elt F) ((V d (cV L) (jV L)).loc cc0_scratch0))
    (pay : S4x128.Idx → Elt F .i32) (hpay : pay = (idxM L).view.read (Elt F) (V0 m d))
    (row : Fin 2 → Nat) (hk : ∀ a, row a + S1x128.size a ≤ S4x128.size a)
    (hq : (Rect.unit (s := S4x128) row S1x128.size hk).shape.Squeezes S128) :
    ∀ x, (View.read (Elt F) ((sI.slice (Rect.unit (s := S4x128) row S1x128.size hk) (fun _ => rfl)).squeeze S128 hq).view
        (View.write (Elt F) sI.view g0 pay Finset.univ) x).toNat < 1000 := by
  subst hpay; intro x
  rw [View.write_whole_univ]
  have e1 : ∀ y, (idxM L).view.read (Elt F) (V0 m d) y = V0 m d ((idxM L).view.emb y) :=
    fun y => (View.read_apply _ _).trans (cast_eq _ _)
  rw [(View.read_apply _ _).trans (cast_eq _ _), e1]
  exact V0_lt m hpre d _

set_option maxRecDepth 65536 in
set_option maxHeartbeats 4000000 in
set_option pp.maxSteps 8000 in
set_option pp.deepTerms false in
/-- The task on the vector subcore at `L` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tblW (Memref.isWhole_whole _) idxW (Memref.isWhole_whole _) outW (Memref.isWhole_whole _)
            sI (Memref.isWhole_whole _) sR (Memref.isWhole_whole _) cc0_scratch2 cc0_scratch3 cc0_scoped0)
          fun _ => iprop(tileRes m d L (Gout m d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold tileRes
  rw [bigSep_fin4, bigSep_fin4]
  iintro ⟨#Hlv, -, ⟨Ht, Hv, Ho0, Ho1, Ho2, Ho3⟩, ⟨⟨%fi, Hsi⟩, ⟨%fr, Hsr⟩, Hbufs⟩, ⟨Hci, Hc0, Hc1, Hc2, Hc3, Hco, Hsems⟩, HO⟩
  ihave Hmw := ((K (F := F)).mayWaits_none (thr := V d (cV L) (jV L)) hO) $$ Hlv
  ihave Ht' := (Entails.of_eq (pts_tbl (F := F) d L _ _).symm) $$ Ht
  ihave Htk := (Transfers.pointsTo_toks_split (tq L) 4) $$ Ht'
  icases Htk with ⟨Htd, Htks⟩
  ihave Htks' := (Entails.of_eq (bigSep_fin4 (F := F) _)) $$ Htks
  icases Htks' with ⟨Htk0, Htk1, Htk2, Htk3⟩
  ihave Hv' := (Entails.of_eq (pts_idx (F := F) d L _).symm) $$ Hv
  ihave Ho0' := (Entails.of_eq (pts_out0 (F := F) d L _).symm) $$ Ho0
  ihave Ho1' := (Entails.of_eq (pts_out1 (F := F) d L _).symm) $$ Ho1
  ihave Ho2' := (Entails.of_eq (pts_out2 (F := F) d L _).symm) $$ Ho2
  ihave Ho3' := (Entails.of_eq (pts_out3 (F := F) d L _).symm) $$ Ho3
  ihave Hsi' := (Entails.of_eq (pts_sI (F := F) d L _).symm) $$ Hsi
  ihave Hsr' := (Entails.of_eq (pts_sR (F := F) d L _).symm) $$ Hsr
  have plan : Transfers.BatchOf (V d (cV L) (jV L)) (SemLoc.dma (sig := sig) osem) 4 := trivial
  sl_exec
  have hin0 := fun g => inb_of_pre m d L hpre g (tile_body.sl.dma0 m d L) rfl ![0, 0] Facts₀.inb_S4x128_S1x128_0_0 Facts₀.squeezes_S1x128_S128
  have hin1 := fun g => inb_of_pre m d L hpre g (tile_body.sl.dma0 m d L) rfl ![1, 0] Facts₀.inb_S4x128_S1x128_1_0 Facts₀.squeezes_S1x128_S128
  have hin2 := fun g => inb_of_pre m d L hpre g (tile_body.sl.dma0 m d L) rfl ![2, 0] Facts₀.inb_S4x128_S1x128_2_0 Facts₀.squeezes_S1x128_S128
  have hin3 := fun g => inb_of_pre m d L hpre g (tile_body.sl.dma0 m d L) rfl ![3, 0] Facts₀.inb_S4x128_S1x128_3_0 Facts₀.squeezes_S1x128_S128
  sl_exec
  sl_step
  -- what the four gathers landed, each on its quarter of the row buffer
  have hg0 : ∀ y, tile_body.sl.gather0 m d L fi hin0 y = Rbuf m d L ((rectR 0).emb y) :=
    fun y => (gather_val m d L 0 fi rfl (hin0 fi) y).trans (congrArg (Rbuf m d L) (rectR_emb 0 y).symm)
  have hg1 : ∀ y, tile_body.sl.gather1 m d L fi hin1 y = Rbuf m d L ((rectR 1).emb y) :=
    fun y => (gather_val m d L 1 fi rfl (hin1 fi) y).trans (congrArg (Rbuf m d L) (rectR_emb 1 y).symm)
  have hg2 : ∀ y, tile_body.sl.gather2 m d L fi hin2 y = Rbuf m d L ((rectR 2).emb y) :=
    fun y => (gather_val m d L 2 fi rfl (hin2 fi) y).trans (congrArg (Rbuf m d L) (rectR_emb 2 y).symm)
  have hg3 : ∀ y, tile_body.sl.gather3 m d L fi hin3 y = Rbuf m d L ((rectR 3).emb y) :=
    fun y => (gather_val m d L 3 fi rfl (hin3 fi) y).trans (congrArg (Rbuf m d L) (rectR_emb 3 y).symm)
  isplitl [Htd Htk0 Htk1 Htk2 Htk3 Hv' Ho0' Ho1' Ho2' Ho3']
  · isplitl [Htd Htk0 Htk1 Htk2 Htk3]
    · iapply (Entails.of_eq (pts_tbl (F := F) d L _ _))
      iapply (Transfers.pointsTo_toks_join (tq L) 4)
      isplitl [Htd]; · iexact Htd
      rw [bigSep_fin4]
      isplitl [Htk0]; · iexact Htk0
      isplitl [Htk1]; · iexact Htk1
      isplitl [Htk2]; · iexact Htk2
      iexact Htk3
    isplitl [Hv']; · iexact Hv'
    isplitl [Ho0']
    · iapply (Entails.of_eq (pointsTo_congr (piece_congr m d L 0 (m (oLoc d)) fr _ _ _ _ hg0 hg1 hg2 hg3))); iexact Ho0'
    isplitl [Ho1']
    · iapply (Entails.of_eq (pointsTo_congr (piece_congr m d L 1 (m (oLoc d)) fr _ _ _ _ hg0 hg1 hg2 hg3))); iexact Ho1'
    isplitl [Ho2']
    · iapply (Entails.of_eq (pointsTo_congr (piece_congr m d L 2 (m (oLoc d)) fr _ _ _ _ hg0 hg1 hg2 hg3))); iexact Ho2'
    · iapply (Entails.of_eq (pointsTo_congr (piece_congr m d L 3 (m (oLoc d)) fr _ _ _ _ hg0 hg1 hg2 hg3))); iexact Ho3'
  isplitl [Hsi' Hsr' Hbufs]
  · isplitl [Hsi']; · iexists _; iexact Hsi'
    isplitl [Hsr']; · iexists _; iexact Hsr'
    iexact Hbufs
  isplitl [Hci Hc0 Hc1 Hc2 Hc3 Hco Hsems]
  · isplitl [Hci]; · iexact Hci
    isplitl [Hc0]; · iexact Hc0
    isplitl [Hc1]; · iexact Hc1
    isplitl [Hc2]; · iexact Hc2
    isplitl [Hc3]; · iexact Hc3
    isplitl [Hco]; · iexact Hco
    iexact Hsems
  iexists _
  isplitr
  swap
  · iexact HO
  ipureintro
  intro p hp
  simp only [Finset.mem_insert] at hp
  rcases hp with rfl | rfl | rfl | rfl | rfl | rfl | rfl | rfl | rfl | hp
  all_goals first | exact .inl hp | exact .inr rfl

end Tile

end Cert.Proof.KB

end
-- ==== Proof.KBLaunch.lean ====
/-
  The launch: from the subcores' tasks to the program's run.

  The launch theorem for SparseCore programs asks for: each subcore's task (the body); how a SparseCore's
  operands split among its sixteen subcores (here a SparseCore is handed exactly its subcores' pieces, so the
  split is the identity); the launch element of the ghost state (the handshakes' rounds; the transfers' counters
  need nothing); @main on the TensorCore — the reshape of the indices, then the call, which takes the table, the
  reshaped indices and the result split into the 32 subcores' pieces and brings them back with the result at
  `Gout` —; and how the final memory reads the claim.
-/
import proofs.«216249_g22557168238913_cont_8to1_658_3_alg».proof.Proof.KBBody
import proofs.«216249_g22557168238913_cont_8to1_658_3_alg».proof.Proof.PreWord

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

theorem defs₀_vector (c : Fin τ.nSC) (s : Fin τ.nSub) :
    defs₀ (F := F) (.scVector c s) 0 ()
      = SparseCore.onTile Facts₀.hcore0 Facts₀.hsub0 (fun c s => cc0_k (coordsV c s)
          tblW (Memref.isWhole_whole _) idxW (Memref.isWhole_whole _) outW (Memref.isWhole_whole _)
          sI (Memref.isWhole_whole _) sR (Memref.isWhole_whole _) cc0_scratch2 cc0_scratch3 cc0_scoped0) ⟨⟩ c s := rfl

omit m [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

omit m [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tileRes m d (Lc (Fin.cast nCore_zero c) i) (m (oLoc d))) ⊢ |={Set.univ}=> iprop(
      (bigSep Finset.univ fun i : Fin ((K (F := F)).nSub 0) => tileRes m d (Lc (Fin.cast nCore_zero c) (Fin.cast nSub_zero i)) (m (oLoc d)))
      ∗ ((bigSep Finset.univ fun i : Fin ((K (F := F)).nSub 0) => tileRes m d (Lc (Fin.cast nCore_zero c) (Fin.cast nSub_zero i)) (Gout m d))
          -∗ bigSep Finset.univ fun i : Fin 16 => tileRes m d (Lc (Fin.cast nCore_zero c) i) (Gout m d)))
  rw [bigSep_tasks (F := F) (fun i => tileRes m d (Lc (Fin.cast nCore_zero c) i) (m (oLoc d))),
    bigSep_tasks (F := F) (fun i => tileRes m d (Lc (Fin.cast nCore_zero c) i) (Gout m d))]
  iintro H; imodintro
  isplitl [H]; · iexact H
  iintro H; iexact H

/-! ## The launch element: the handshakes' rounds; nothing of the kernel's own -/

def u₀ : UU := (initOf (K (F := F)).hsCells (K (F := F)).hsToks, 1)

omit m [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays, all unscoped: the indices, the table, the reshaped indices, the result. -/
abbrev S4 : Finset (DevRef τ sig) := {a', t', v', o'}

omit m [FloatOps F] in
theorem held_S4 (d : Dev nD) (W : Valuation τ sig (Elt F)) :
    (held (T d) S4 W : sProp 𝕄) = iprop((aLoc d ↦{fullShare} W a') ∗ (tLoc d ↦{fullShare} W t') ∗ (vLoc d ↦{fullShare} W v') ∗ oLoc d ↦{fullShare} W o') := by
  unfold held S4
  rw [SparseCore.bigSep_insert' (by decide), SparseCore.bigSep_insert' (by decide), SparseCore.bigSep_insert' (by decide), bigSep_singleton]

omit m [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (vLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (Vl m d) := by
  rw [unscopedBufs_eq, held_S4]; rfl

theorem Vr_a (d : Dev nD) : Vr m d a' = m (aLoc d) :=
  (opReshape (F := F)).result_of_not_mem (Vl m d) (b := a') (show a' ∉ ({v'} : Finset (DevRef τ sig)) by decide)
theorem Vr_t (d : Dev nD) : Vr m d t' = m (tLoc d) :=
  (opReshape (F := F)).result_of_not_mem (Vl m d) (b := t') (show t' ∉ ({v'} : Finset (DevRef τ sig)) by decide)
theorem Vr_o (d : Dev nD) : Vr m d o' = m (oLoc d) :=
  (opReshape (F := F)).result_of_not_mem (Vl m d) (b := o') (show o' ∉ ({v'} : Finset (DevRef τ sig)) by decide)

theorem hRe : (opReshape (F := F)).bufs ⊆ S4 := show ({a', v'} : Finset (DevRef τ sig)) ⊆ S4 by decide

/-- What the call takes for the two SparseCores, and what it hands back: the three arrays whole. -/
theorem st0_eq (d : Dev nD) : (bigSep Finset.univ fun c : Fin ((K (F := F)).nCore 0) => (P m).st 0 d c)
    = iprop((tLoc d ↦{fullShare} m (tLoc d)) ∗ (vLoc d ↦{fullShare} V0 m d) ∗ (oLoc d ↦{fullShare} m (oLoc d))) := by
  rw [arrays_split]
  exact bigSep_congr fun c _ => rfl
theorem dn0_eq (d : Dev nD) : (bigSep Finset.univ fun c : Fin ((K (F := F)).nCore 0) => (P m).dn 0 d c)
    = iprop((tLoc d ↦{fullShare} m (tLoc d)) ∗ (vLoc d ↦{fullShare} V0 m d) ∗ (oLoc d ↦{fullShare} Gout m d)) := by
  rw [arrays_split]
  exact bigSep_congr fun c _ => rfl

/-- What @main leaves the claim: the indices and the table at their launch contents, the result at `Gout`. -/
abbrev FIN (d : Dev nD) : sProp 𝕄 := iprop((aLoc d ↦{fullShare} m (aLoc d)) ∗ (tLoc d ↦{fullShare} m (tLoc d)) ∗ (oLoc d ↦{fullShare} Gout m d))

/-- @main on device `d`'s TensorCore: the reshape, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opReshape) (S := S4) hRe (V := Vl m d)) $$ [Hb Hheld]
  · isplitl [Hb]; · iexact Hb
    iexact Hheld
  iintro ⟨Hb, Hheld⟩
  ihave Hh := (Entails.of_eq (held_S4 (F := F) d _)) $$ Hheld
  icases Hh with ⟨Ha, Ht, Hv, Ho⟩
  rw [show (opReshape (F := F)).result (Vl m d) = Vr m d from rfl, Vr_a, Vr_t, Vr_o]
  rw [wp_ret]
  iapply ((K (F := F)).wp_run (D (F := F)) 𝒱 (EH := EH) (P := P m) κ d 0) $$ [Hst Ht Hv Ho Ha]
  isplitr; · iexact Hctx
  isplitl [Hst]; · iexact Hst
  isplitl [Ht Hv Ho]
  · rw [st0_eq]
    isplitl [Ht]; · iexact Ht
    isplitl [Hv]; · iexact Hv
    iexact Ho
  iintro ⟨Hst, Hdn⟩
  ihave Hdn' := (Entails.of_eq (dn0_eq m d)) $$ Hdn
  icases Hdn' with ⟨Ht, -, Ho⟩
  imodintro
  isplitl [Hst]; · iexact Hst
  isplitl [Ha]; · iexact Ha
  isplitl [Ht]; · iexact Ht
  iexact Ho

def fq (d : Dev nD) (s' : Phys nD τ sig (Elt F)) : Prop :=
  s'.mem.mem (oLoc d) = Gout m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gout m c ∧ r.2.mem (aLoc c) = m (aLoc c) ∧ r.2.mem (tLoc c) = m (tLoc c)

/-- Under the precondition's fact, every weakly fair execution of the device's threads ends, nothing faulting, with the
    result at `Gout` and the two arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The precondition gives what the proof asks of the launch memory. -/
theorem ok_of_pre (h : ∀ c : Dev nD, Cert.Pre_input_domain.fn (F := F) (m ((c.tc : Thread nD τ).loc main_arg0)) (m ((c.tc : Thread nD τ).loc main_arg1)) = fun _ => 1#1) :
    PreOK m :=
  fun d x => Cert.Proof.PreWord.idx_lt _ _ (h d) x

end Cert.Proof.KB

end
-- ==== Proof.LibRowOps.lean ====
/-
  Row gathers and row scatter-adds of a two-axis array, read at one element.

  A gather of rows: operand [N, C], one start word per result row (start indices [E, 1]), result [E, C].  Result element
  (e, c) is the operand at (the start word of row e read signed and clamped into [0, N - 1], c).
  A scatter-add of rows: operand [N, C], one index word per update row, updates [E, C].  Update element (e, c) lands on
  operand element (n, c') exactly when the word of row e, read signed, is n and c = c' (a word out of range lands nowhere).
-/
import Idealize.ShloMosaic.PureOps.Ideal
import Idealize.ShloMosaic.Lib.ValueIdx

noncomputable section

open scoped BigOperators

namespace Cert.Gat.Rows

open Idealize.ShloMosaic Idealize.ShloMosaic.ValueIdx

section Gather
variable {α : Type} {N C E w : Nat}

/-- The dimension numbers of a row gather. -/
abbrev rowDims (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem not_one_mem : ¬ (1 : Fin 2) ∈ ([0] : List (Fin 2)) := by decide
theorem not_zero_mem_one : ¬ (0 : Fin 2) ∈ ([1] : List (Fin 2)) := by decide

/-- The operand row a result element reads: the clamped start word. -/
theorem opIdx0 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (0 : Fin 2) + (rowDims wf).batchCoord (ix2 e c) (0 : Fin 2) + (rowDims wf).offCoord (ix2 e c) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims wf).startIndexMap from List.mem_singleton.mpr rfl)]
  have hsi : (rowDims wf).siIdx (ix2 e c) ⟨List.idxOf (0 : Fin 2) (rowDims wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- The operand column a result element reads: its own. -/
theorem opIdx1 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (1 : Fin 2) + (rowDims wf).batchCoord (ix2 e c) (1 : Fin 2) + (rowDims wf).offCoord (ix2 e c) (1 : Fin 2)
      = c.val := by
  rw [GatherDims.batchCoord_eq_zero _ _ _ List.not_mem_nil]
  unfold GatherDims.start GatherDims.offCoord
  rw [dif_neg (show ¬ (1 : Fin 2) ∈ (rowDims wf).startIndexMap from not_one_mem),
    dif_pos (show (1 : Fin 2) ∈ (rowDims wf).sKept from
      (GatherDims.mem_sKept _ _).mpr ⟨not_one_mem, List.not_mem_nil⟩)]
  simp only [Nat.zero_add]
  rfl

/-- A row gather at (e, c): the operand at (the clamped start word of row e, c). -/
theorem gather_row_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ => exact opIdx0 wf idx e c
  | ⟨1, _⟩ => exact opIdx1 wf idx e c

end Gather

section Scatter
variable {N C E w : Nat}

/-- The dimension numbers of a row scatter. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (0 : Fin 2) = (idx (ix2 e ⟨0, Nat.one_pos⟩)).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

theorem start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (1 : Fin 2) = 0 := by
  unfold ScatterDims.start
  rw [dif_neg (show ¬ (1 : Fin 2) ∈ (rowScatter wf).scatterDimsToOperandDims from not_one_mem)]

theorem window0 (wf : ScatterDims.WF ⟨2, ![N, C]⟩ ⟨2, ![E, 1]⟩ ⟨2, ![E, C]⟩ [1] [0] [0] 1) (e : Fin E) (c : Fin C) :
    (rowScatter wf).window (ix2 e c) (0 : Fin 2) = 0 := by
  unfold ScatterDims.window
  rw [dif_neg (show ¬ (0 : Fin 2) ∈ (rowScatter wf).sKept from by simp [ScatterDims.sKept, Shape.kept, List.mem_filter, List.mem_finRange])]

theorem window1 (wf : ScatterDims.WF ⟨2, ![N, C]⟩ ⟨2, ![E, 1]⟩ ⟨2, ![E, C]⟩ [1] [0] [0] 1) (e : Fin E) (c : Fin C) :
    (rowScatter wf).window (ix2 e c) (1 : Fin 2) = c.val := by
  unfold ScatterDims.window
  rw [dif_pos (show (1 : Fin 2) ∈ (rowScatter wf).sKept from by simp [ScatterDims.sKept, Shape.kept, List.mem_filter, List.mem_finRange])]
  rfl

/-- Where an update element lands. -/
theorem lands_iff (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatter wf).resultIdx? (ix2 e c) idx = some (ix2 n c')
      ↔ (idx (ix2 e ⟨0, Nat.one_pos⟩)).toInt = (n.val : Int) ∧ c = c' := by
  unfold ScatterDims.resultIdx?
  have h0 := start0 wf idx e c
  have h1 := start1 wf idx e c
  have w0 := window0 wf e c
  have w1 := window1 wf e c
  constructor
  · intro h
    split at h
    · rename_i hall
      have hv := Option.some.inj h
      have e0 := congrArg (fun f => (f (0 : Fin 2) : Fin _).val) hv
      have e1 := congrArg (fun f => (f (1 : Fin 2) : Fin _).val) hv
      simp only [h0, h1, w0, w1] at e0 e1
      have hb := hall (0 : Fin 2)
      rw [h0, w0] at hb
      refine ⟨?_, Fin.ext ?_⟩
      · have : ((idx (ix2 e ⟨0, Nat.one_pos⟩)).toInt + ((0 : Nat) : Int)).toNat = n.val := e0
        omega
      · have : ((0 : Int) + ((c.val : Nat) : Int)).toNat = c'.val := e1
        omega
    · exact absurd h (by simp)
  · rintro ⟨hn, rfl⟩
    have hall : ∀ a : Fin 2, 0 ≤ (rowScatter wf).start (ix2 e c) idx a + (rowScatter wf).window (ix2 e c) a ∧
        (rowScatter wf).start (ix2 e c) idx a + (rowScatter wf).window (ix2 e c) a < (⟨2, ![N, C]⟩ : Shape).size a := by
      intro a
      match a with
      | ⟨0, _⟩ =>
        show 0 ≤ (rowScatter wf).start (ix2 e c) idx (0 : Fin 2) + (((rowScatter wf).window (ix2 e c) (0 : Fin 2) : Nat) : Int) ∧
          (rowScatter wf).start (ix2 e c) idx (0 : Fin 2) + (((rowScatter wf).window (ix2 e c) (0 : Fin 2) : Nat) : Int) < ((N : Nat) : Int)
        rw [h0, w0, hn]
        have := n.isLt
        omega
      | ⟨1, _⟩ =>
        show 0 ≤ (rowScatter wf).start (ix2 e c) idx (1 : Fin 2) + (((rowScatter wf).window (ix2 e c) (1 : Fin 2) : Nat) : Int) ∧
          (rowScatter wf).start (ix2 e c) idx (1 : Fin 2) + (((rowScatter wf).window (ix2 e c) (1 : Fin 2) : Nat) : Int) < ((C : Nat) : Int)
        rw [h1, w1]
        have := c.isLt
        omega
    rw [dif_pos hall]
    congr 1
    funext a
    refine Fin.ext ?_
    match a with
    | ⟨0, _⟩ =>
      show ((rowScatter wf).start (ix2 e c) idx (0 : Fin 2) + (rowScatter wf).window (ix2 e c) (0 : Fin 2)).toNat = n.val
      rw [h0, w0, hn]; omega
    | ⟨1, _⟩ =>
      show ((rowScatter wf).start (ix2 e c) idx (1 : Fin 2) + (rowScatter wf).window (ix2 e c) (1 : Fin 2)).toNat = c.val
      rw [h1, w1]; omega

/-- The sum over the update elements that land on (n, c') is the sum, over the rows whose word is n, of column c'. -/
theorem sum_lands {β : Type} [AddCommMonoid β]
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx → β) (n : Fin N) (c' : Fin C) :
    ∑ j ∈ Finset.univ.filter (fun j => (rowScatter wf).resultIdx? j idx = some (ix2 n c')), u j
      = ∑ e ∈ Finset.univ.filter (fun e : Fin E => (idx (ix2 e ⟨0, Nat.one_pos⟩)).toInt = (n.val : Int)), u (ix2 e c') := by
  symm
  refine Finset.sum_bij (fun e _ => ix2 e c') ?_ ?_ ?_ ?_
  · intro e he
    rw [Finset.mem_filter] at he ⊢
    exact ⟨Finset.mem_univ _, (lands_iff wf idx e c' n c').mpr ⟨he.2, rfl⟩⟩
  · intro e _ e' _ h
    have := congrFun h (0 : Fin 2)
    exact this
  · intro j hj
    rw [Finset.mem_filter] at hj
    rw [eq_ix2 j] at hj
    obtain ⟨hn, hc⟩ := (lands_iff wf idx (j 0) (j 1) n c').mp hj.2
    refine ⟨j 0, Finset.mem_filter.mpr ⟨Finset.mem_univ _, hn⟩, ?_⟩
    rw [← hc]; exact (eq_ix2 j).symm
  · intro e _; rfl

end Scatter

end Cert.Gat.Rows

end
-- ==== Proof.RefRun.lean ====
/-
  The reference's run.

  The reference is a table lookup written with a general-purpose "take": the index words are first wrapped
  (a negative word gets the table's height added), then tested for lying inside the table, the rows are gathered
  with the start word clamped into the table, and a row whose word failed the test is replaced by a constant.
  Where every index word is below 1000 the wrap adds nothing, the test passes on every row and the clamp moves
  nothing: row e of the result is row idx[e] of the table.

  The program is a straight line of twenty-three host operations (the called function's operations listed at the
  call, over the call's own buffers), so every execution ends with each buffer at the fold of the operations over
  the launch contents.  The fold at the result buffer is one pure function of the two arguments (the definition
  "out" below); that function is then read at one index.
-/
import proofs.«216249_g22557168238913_cont_8to1_658_3_alg».proof.ReferenceIdeal
import proofs.«216249_g22557168238913_cont_8to1_658_3_alg».proof.Proof.Gen.ReferenceIdeal
import proofs.«216249_g22557168238913_cont_8to1_658_3_alg».proof.Proof.Spec
import proofs.«216249_g22557168238913_cont_8to1_658_3_alg».proof.Proof.LibRowOps
import Idealize.ShloMosaic.Lib.StableHlo.Run
import Idealize.ShloMosaic.Lib.ValueIdx
import Idealize.ShloMosaic.Lib.Pipeline.Value
import Idealize.ShloMosaic.PureOps.Ideal
import Idealize.ShloMosaic.PureOps.Reduce

noncomputable section

namespace Cert.Proof.Ref

open Cert.ReferenceIdeal Cert.ReferenceIdeal.Gen Idealize.ShloMosaic Idealize.ShloMosaic.TcCoe Idealize.SL.Sem
open Idealize.ShloMosaic.StableHlo

variable {F : FTy → Type} [FloatOps F]

/-- The program's twenty-three operations in order, the two calls unfolded. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- The program is that straight line: the two functions' bodies unfolded at their calls, both sides are one chain
    of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters: every weakly fair execution of the program ends with each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one function of the two arguments -/

/-- The index words after the wrap: a word that is negative as a signed number gets the table's height added. -/
def wrapIdx (idx : IVec S16384 32) : IVec S16384 32 :=
  select (cmpi .slt idx (broadcastInDim S16384 ![] bcast_S_S16384 (constantI S_ 32 0#32)))
    (addi idx (broadcastInDim S16384 ![] bcast_S_S16384 (constantI S_ 32 1000#32))) idx

/-- The wrapped words as a column of one-word rows: the gather's start indices. -/
def col (idx : IVec S16384 32) : IVec S16384x1 32 :=
  broadcastInDim S16384x1 ![0] bcast_S16384_S16384x1_0 (wrapIdx idx)

/-- Per row, whether its start word lies inside the table: 0 ≤ word ≤ 999, signed, and-ed over the row's one word. -/
def inRange (idx : IVec S16384 32) : IVec S16384 1 :=
  Host.reduce IntOp.andi
    (andi (cmpi .sge (col idx) (broadcastInDim S16384x1 ![] bcast_S_S16384x1 (constantI S_ 32 0#32)))
      (cmpi .sle (col idx)
        (broadcastInDim S16384x1 ![0, 1] bcast_S1x1_S16384x1_0_1
          (broadcastInDim S1x1 ![1] bcast_S1_S1x1_1 (constantI S1 32 999#32)))))
    (constantI S_ 1 1#1) reducesTo_S16384x1_S16384_d1 h_S_

/-- What the program computes from the table and the index words: the gathered rows, a row whose word is outside
    the table replaced by the fill constant. -/
def out (tbl : FVec F S1000x128 .f32) (idx : IVec S16384 32) : FVec F S16384x128 .f32 :=
  select (broadcastInDim S16384x128 ![0] bcast_S16384_S16384x128_0 (inRange idx))
    (Host.gather gather_S1000x128_S16384x1_S16384x128_1_0_n_n_0_1_1128 tbl (col idx))
    (broadcastInDim S16384x128 ![] bcast_S_S16384x128 (constant (F := F) S_ .f32 0x7FC00000#32))

attribute [local irreducible] Host.reduce Host.gather in
set_option maxRecDepth 8192 in
set_option maxHeartbeats 800000 in
/-- The fold at the result buffer is that function of the fold's start at the two argument buffers: the fold
    unrolled, each operation's result rewritten at the buffer it writes to its function's value and at any other
    buffer to what was there; what is left differs from the definition only by the typed references' transports,
    the identity at a literal reference.  The reduction and the gather stay folded meanwhile. -/
theorem out_eq (V : Valuation τ sig (Elt F)) :
    after ops V (main_v0 : DevRef τ sig) = out (V (main_arg1 : DevRef τ sig)) (V (main_arg0 : DevRef τ sig)) := by
  after_results
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-! ## That function read at one index -/

section Words

/-- A word below 1000 read as a signed number is the same number. -/
theorem toInt_of_lt (v : BitVec 32) (h : v.toNat < 1000) : v.toInt = (v.toNat : Int) := by
  have e := BitVec.toInt_eq_toNat_cond v
  omega

/-- Such a word is not negative: the wrap's test fails. -/
theorem slt_zero_of_lt (v : BitVec 32) (h : v.toNat < 1000) : IntOp.cmpi .slt v 0#32 = 0#1 := by
  show BitVec.ofBool (decide (v.toInt < (0#32 : BitVec 32).toInt)) = 0#1
  have h0 : (0#32 : BitVec 32).toInt = 0 := by decide
  rw [toInt_of_lt v h, h0, decide_eq_false (by omega)]
  rfl

/-- Such a word is at least zero, signed. -/
theorem sge_zero_of_lt (v : BitVec 32) (h : v.toNat < 1000) : IntOp.cmpi .sge v 0#32 = 1#1 := by
  show BitVec.ofBool (decide ((0#32 : BitVec 32).toInt ≤ v.toInt)) = 1#1
  have h0 : (0#32 : BitVec 32).toInt = 0 := by decide
  rw [toInt_of_lt v h, h0, decide_eq_true (by omega)]
  rfl

/-- Such a word is at most 999, signed. -/
theorem sle_999_of_lt (v : BitVec 32) (h : v.toNat < 1000) : IntOp.cmpi .sle v 999#32 = 1#1 := by
  show BitVec.ofBool (decide (v.toInt ≤ (999#32 : BitVec 32).toInt)) = 1#1
  have h0 : (999#32 : BitVec 32).toInt = 999 := by decide
  rw [toInt_of_lt v h, h0, decide_eq_true (by omega)]
  rfl

/-- A left fold that meets only the value it starts from, by an operation that keeps that value, ends at it. -/
theorem foldl_const {α ι : Type} (f : α → α → α) (b : α) (x : ι → α) (hf : f b b = b) (hx : ∀ i, x i = b) (l : List ι) :
    l.foldl (fun r i => f r (x i)) b = b := by
  induction l with
  | nil => rfl
  | cons a l ih => rw [List.foldl_cons, hx a, hf]; exact ih

end Words

open Idealize.ShloMosaic.ValueIdx

/-- Where the word is below 1000 the wrap leaves it. -/
theorem wrapIdx_apply (idx : IVec S16384 32) (i : S16384.Idx) (h : (idx i).toNat < 1000) : wrapIdx idx i = idx i := by
  show Scalar.select (IntOp.cmpi .slt (idx i) 0#32) (IntOp.addi (idx i) 1000#32) (idx i) = idx i
  rw [slt_zero_of_lt _ h, select_zero]

/-- Row e of the column is the wrapped word e. -/
theorem col_apply (idx : IVec S16384 32) (e : Fin 16384) (z : Fin 1) : col idx (ix2 e z) = wrapIdx idx (ix1 e) := by
  unfold col
  refine broadcastInDim_apply _ _ _ _ (ix1 e) ?_
  intro a
  match a with
  | ⟨0, _⟩ => rfl

/-- Where every word is below 1000 every row passes the test. -/
theorem inRange_apply (idx : IVec S16384 32) (hpre : ∀ i, (idx i).toNat < 1000) (j : S16384.Idx) : inRange idx j = 1#1 := by
  unfold inRange
  rw [Host.reduce_eq_foldl]
  refine foldl_const IntOp.andi 1#1 _ (by decide) ?_ _
  intro i
  obtain ⟨e, z, rfl⟩ : ∃ e z, i = ix2 e z := ⟨i 0, i 1, eq_ix2 i⟩
  show IntOp.andi (IntOp.cmpi .sge (col idx (ix2 e z)) 0#32) (IntOp.cmpi .sle (col idx (ix2 e z)) 999#32) = 1#1
  rw [col_apply, wrapIdx_apply _ _ (hpre _), sge_zero_of_lt _ (hpre _), sle_999_of_lt _ (hpre _)]
  decide

/-- Where every word is below 1000, element (e, c) of the result is the table at (word e, c). -/
theorem out_apply (tbl : FVec F S1000x128 .f32) (idx : IVec S16384 32) (hpre : ∀ i, (idx i).toNat < 1000)
    (e : Fin 16384) (c : Fin 128) :
    out tbl idx (ix2 e c) = Cert.Proof.Spec.lookup tbl idx (ix2 e c) := by
  show Scalar.select (broadcastInDim S16384x128 ![0] bcast_S16384_S16384x128_0 (inRange idx) (ix2 e c))
      (Host.gather gather_S1000x128_S16384x1_S16384x128_1_0_n_n_0_1_1128 tbl (col idx) (ix2 e c))
      (broadcastInDim S16384x128 ![] bcast_S_S16384x128 (constant (F := F) S_ .f32 0x7FC00000#32) (ix2 e c))
    = tbl (ix2 (Cert.Proof.Spec.rowOf (idx (ix1 e))) c)
  have hb : broadcastInDim S16384x128 ![0] bcast_S16384_S16384x128_0 (inRange idx) (ix2 e c) = inRange idx (ix1 e) := by
    refine broadcastInDim_apply _ _ _ _ (ix1 e) ?_
    intro a
    match a with
    | ⟨0, _⟩ => rfl
  rw [hb, inRange_apply idx hpre, select_one]
  have hg := Cert.Gat.Rows.gather_row_apply (α := F .f32) (N := 1000) (C := 128) (E := 16384) (w := 32) (by decide)
    gather_S1000x128_S16384x1_S16384x128_1_0_n_n_0_1_1128_wf tbl (col idx) e c
  refine hg.trans (congrArg tbl ?_)
  have hw : col idx (ix2 e ⟨0, Nat.one_pos⟩) = idx (ix1 e) := by
    rw [col_apply, wrapIdx_apply _ _ (hpre _)]
  have hlt := hpre (ix1 e)
  have hrow : (⟨min (col idx (ix2 e ⟨0, Nat.one_pos⟩)).toInt.toNat (1000 - 1), by omega⟩ : Fin 1000)
      = Cert.Proof.Spec.rowOf (idx (ix1 e)) := by
    refine Fin.ext ?_
    show min (col idx (ix2 e ⟨0, Nat.one_pos⟩)).toInt.toNat (1000 - 1) = min (idx (ix1 e)).toNat 999
    rw [hw, toInt_of_lt _ hlt, Int.toNat_natCast]
  rw [hrow]

/-- The same for every index. -/
theorem out_eq_lookup (tbl : FVec F S1000x128 .f32) (idx : IVec S16384 32) (hpre : ∀ i, (idx i).toNat < 1000) :
    out tbl idx = Cert.Proof.Spec.lookup tbl idx := by
  funext x
  rw [eq_ix2 x]
  exact out_apply tbl idx hpre _ _

/-! ## The run -/

/-- For any float values: where every index word is below 1000, every weakly fair execution of the program ends
    with the result buffer at the lookup of the table at the index words, and both arguments unchanged. -/
theorem run_gen (m : (ℓ : Loc nD τ sig) → Buf (Elt F) ℓ) (ρ : Dev nD → PrngReg)
    (hpre : ∀ (c : Dev nD) (x : S16384.Idx), (m ((c.tc : Thread nD τ).loc main_arg0) x : BitVec 32).toNat < 1000) :
    θ_run (defs (F := F)) (onTc (τ := τ) (main (F := F))) ⟨m, fun _ => 0, ρ⟩ (fun r => ∀ c : Dev nD,
      r.2.mem ((c.tc : Thread nD τ).loc main_v0)
          = (Cert.Proof.Spec.lookup (m ((c.tc : Thread nD τ).loc main_arg1)) (m ((c.tc : Thread nD τ).loc main_arg0)) :
              S16384x128.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v0).trans ((out_eq (launchContents m c)).trans
          (out_eq_lookup (m ((c.tc : Thread nD τ).loc main_arg1)) (m ((c.tc : Thread nD τ).loc main_arg0)) (hpre c))),
        (h c main_arg0).trans (arg0_eq (launchContents m c)),
        (h c main_arg1).trans (arg1_eq (launchContents m c))⟩)
    (run_main m ρ)

/-- The same at the ideal values. -/
theorem run (m : (ℓ : Loc Cert.ReferenceIdeal.nD Cert.ReferenceIdeal.τ Cert.ReferenceIdeal.sig) → Buf (Elt Ideal) ℓ)
    (ρ : Dev Cert.ReferenceIdeal.nD → PrngReg)
    (hpre : ∀ (c : Dev Cert.ReferenceIdeal.nD) (x : Cert.ReferenceIdeal.S16384.Idx),
      (m ((c.tc : Thread _ _).loc Cert.ReferenceIdeal.main_arg0) x : BitVec 32).toNat < 1000) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread _ _).loc Cert.ReferenceIdeal.main_v0)
          = (Cert.Proof.Spec.lookup (m ((c.tc : Thread _ _).loc Cert.ReferenceIdeal.main_arg1))
              (m ((c.tc : Thread _ _).loc Cert.ReferenceIdeal.main_arg0)) : Cert.ReferenceIdeal.S16384x128.Idx → Elt Ideal .f32)
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  run_gen m ρ hpre

end Cert.Proof.Ref

end
-- ==== Proof.lean ====
/-
  The certificate: an embedding lookup on the SparseCore against `jnp.take`.

  Both programs compute, where every index is below 1000, the array whose row `i` is row `inputs[i]` of the table.
  The kernel's 32 vector subcores each copy their 512 indices into their own memory, gather the 512 table rows those
  indices name, and copy them out to their 512 rows of the result; the table only moves, so the same argument serves
  the word-level program and the idealized one.  The reference wraps negative indices, tests the indices for lying in the
  table, gathers with the index clamped, and replaces the rows whose index failed the test; under the precondition
  (0 ≤ index ≤ 999 as signed words) none of that changes anything.

  The three frames are the runs with the values dropped; the idealization rewrote nothing, so `preserves` is trivial;
  `algebraic` is the kernel's run at the ideal values beside the reference's run, the two results one function of the
  arguments (`Spec.lookup`).
-/
import proofs.«216249_g22557168238913_cont_8to1_658_3_alg».proof.Defs
import proofs.«216249_g22557168238913_cont_8to1_658_3_alg».proof.Proof.Gen.Kernel
import proofs.«216249_g22557168238913_cont_8to1_658_3_alg».proof.Proof.Gen.Kernel.Skeleton
import proofs.«216249_g22557168238913_cont_8to1_658_3_alg».proof.Proof.Gen.KernelIdeal
import proofs.«216249_g22557168238913_cont_8to1_658_3_alg».proof.Proof.Gen.KernelIdeal.Skeleton
import proofs.«216249_g22557168238913_cont_8to1_658_3_alg».proof.Proof.Gen.ReferenceIdeal
import proofs.«216249_g22557168238913_cont_8to1_658_3_alg».proof.Proof.Gen.Pre_input_domain
import proofs.«216249_g22557168238913_cont_8to1_658_3_alg».proof.Proof.KILaunch
import proofs.«216249_g22557168238913_cont_8to1_658_3_alg».proof.Proof.KBLaunch
import proofs.«216249_g22557168238913_cont_8to1_658_3_alg».proof.Proof.RefRun
import proofs.«216249_g22557168238913_cont_8to1_658_3_alg».proof.Proof.PreWord
import Idealize.ShloMosaic.Adequacy
import Idealize.ShloMosaic.Init

noncomputable section

namespace Cert.Proof

open Idealize.ShloMosaic Idealize.SL.Sem

/-- The word-level kernel runs to the end, faulting nowhere, its arguments unchanged. -/
theorem frame_k : Cert.frame_Kernel := fun m ρ hpre =>
  (θ_run (Cert.Kernel.defs (F := Bits)) _ _).mono (fun _ h c => ⟨(h c).2.1, (h c).2.2⟩)
    (Cert.Proof.KB.run_main (F := Bits) m ρ (Cert.Proof.KB.ok_of_pre m hpre))

/-- So does the idealized kernel. -/
theorem frame_ki : Cert.frame_KernelIdeal := fun m ρ hpre =>
  (θ_run (Cert.KernelIdeal.defs (F := Ideal)) _ _).mono (fun _ h c => ⟨(h c).2.1, (h c).2.2⟩)
    (Cert.Proof.KI.run_main (F := Ideal) m ρ (Cert.Proof.KI.ok_of_pre m hpre))

/-- And the reference. -/
theorem frame_ri : Cert.frame_ReferenceIdeal := fun m ρ hpre =>
  (θ_run (Cert.ReferenceIdeal.defs (F := Ideal)) _ _).mono (fun _ h c => (h c).2)
    (Cert.Proof.Ref.run m ρ (fun c x => Cert.Proof.PreWord.idx_lt _ _ (hpre c) x))

/-- The idealization rewrote no operation. -/
theorem preserves : Cert.preserves_Kernel_KernelIdeal := trivial

/-- At the ideal values, from memories agreeing on the arguments, both programs end with the lookup of the table at
    the indices, the arguments unchanged. -/
theorem algebraic : Cert.algebraic_KernelIdeal_ReferenceIdeal := by
  intro m ρ m' ρ' hpre hagree
  have hok : Cert.Proof.KI.PreOK m := Cert.Proof.KI.ok_of_pre m hpre
  refine ⟨fun c => Cert.Proof.KI.Gout m c, ?_, ?_⟩
  · exact (θ_run (Cert.KernelIdeal.defs (F := Ideal)) _ _).mono (fun _ h c => h c) (Cert.Proof.KI.run_main (F := Ideal) m ρ hok)
  · refine (θ_run (Cert.ReferenceIdeal.defs (F := Ideal)) _ _).mono (fun _ h c => ⟨(h c).1.trans ?_, (h c).2.1, (h c).2.2⟩)
      (Cert.Proof.Ref.run m' ρ' (fun c x => by rw [(hagree c).1]; exact hok c x))
    rw [(hagree c).1, (hagree c).2]
    exact (Cert.Proof.KI.Gout_eq_lookup m c).symm

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
